-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x64 : Shape := ⟨2, ![640000, 64]⟩
abbrev S2048 : Shape := ⟨1, ![2048]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part2 {F : FTy → Type} [FloatOps F] (main_arg10 : FVec F S256 .f32) (main_arg11 : FVec F S1x256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1x256 .f32 := Host.absf main_arg11
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  main_v43

def fn_part1 {F : FTy → Type} [FloatOps F] (main_arg7 : FVec F S128x256 .f32) (main_arg8 : FVec F S256 .f32) (main_arg9 : FVec F S256x256 .f32) (main_arg10 : FVec F S256 .f32) (main_arg11 : FVec F S1x256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg7
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_v33

def fn {F : FTy → Type} [FloatOps F] (main_arg0 : FVec F S40000x128 .f32) (main_arg1 : IVec S2x640000 32) (main_arg2 : FVec F S640000x64 .f32) (main_arg3 : IVec S2048 32) (main_arg4 : IVec S2048 32) (main_arg5 : FVec F S64x128 .f32) (main_arg6 : FVec F S128 .f32) (main_arg7 : FVec F S128x256 .f32) (main_arg8 : FVec F S256 .f32) (main_arg9 : FVec F S256x256 .f32) (main_arg10 : FVec F S256 .f32) (main_arg11 : FVec F S1x256 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_v13 main_v16
-- ==== Kernel.lean ====
abbrev S40000x128 : Shape := ⟨2, ![40000, 128]⟩
abbrev S2x640000 : Shape := ⟨2, ![2, 640000]⟩
abbrev S640000x64 : Shape := ⟨2, ![640000, 64]⟩
abbrev S2048 : Shape := ⟨1, ![2048]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S16000x128 : Shape := ⟨2, ![16000, 128]⟩
abbrev S16000x64 : Shape := ⟨2, ![16000, 64]⟩
abbrev S40000x256 : Shape := ⟨2, ![40000, 256]⟩
abbrev S8000x128 : Shape := ⟨2, ![8000, 128]⟩
abbrev S8000x256 : Shape := ⟨2, ![8000, 256]⟩
abbrev S2048x1 : Shape := ⟨2, ![2048, 1]⟩
abbrev S2048x256 : Shape := ⟨2, ![2048, 256]⟩
abbrev S1x1 : Shape := ⟨2, ![1, 1]⟩
abbrev S1 : Shape := ⟨1, ![1]⟩

abbrev nBuf : Space → Nat
  | .hbm => 55
  | .vmem => 23
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x64, .f32⟩
  | .hbm, ⟨3, _⟩ => ⟨S2048, .i32⟩
  | .hbm, ⟨4, _⟩ => ⟨S2048, .i32⟩
  | .hbm, ⟨5, _⟩ => ⟨S64x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S1x128, .f32⟩
  | .hbm, ⟨26, _⟩ => ⟨S640000x128, .f32⟩
  | .hbm, ⟨27, _⟩ => ⟨S_, .f32⟩
  | .hbm, ⟨28, _⟩ => ⟨S40000x128, .f32⟩
  | .hbm, ⟨29, _⟩ => ⟨S640000x1, .i32⟩
  | .hbm, ⟨30, _⟩ => ⟨S40000x128, .f32⟩
  | .hbm, ⟨31, _⟩ => ⟨S1x256, .f32⟩
  | .hbm, ⟨32, _⟩ => ⟨S1x256, .f32⟩
  | .hbm, ⟨33, _⟩ => ⟨S40000x256, .f32⟩
  | .hbm, ⟨34, _⟩ => ⟨S1x256, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S2048x1, .i32⟩
  | .hbm, ⟨43, _⟩ => ⟨S2048x256, .f32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x256, .f32⟩
  | .hbm, ⟨53, _⟩ => ⟨S1x1, .f32⟩
  | .hbm, ⟨54, _⟩ => ⟨S_, .f32⟩
  | .local _ .vmem, ⟨0, _⟩ => ⟨S16000x128, .f32⟩
  | .local _ .vmem, ⟨1, _⟩ => ⟨S16000x128, .f32⟩
  | .local _ .vmem, ⟨2, _⟩ => ⟨S16000x64, .f32⟩
  | .local _ .vmem, ⟨3, _⟩ => ⟨S16000x64, .f32⟩
  | .local _ .vmem, ⟨4, _⟩ => ⟨S64x128, .f32⟩
  | .local _ .vmem, ⟨5, _⟩ => ⟨S1x128, .f32⟩
  | .local _ .vmem, ⟨6, _⟩ => ⟨S16000x128, .f32⟩
  | .local _ .vmem, ⟨7, _⟩ => ⟨S16000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S8000x256, .f32⟩
  | .local _ .vmem, ⟨17, _⟩ => ⟨S8000x256, .f32⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | .local _ .vmem, ⟨21, _⟩ => ⟨S1x256, .f32⟩
  | .local _ .vmem, ⟨22, _⟩ => ⟨S1x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S16000x64_S16000x64_0_0 : ∀ a, (![0, 0] : Fin 2 → Nat) a + S16000x64.size a ≤ S16000x64.size a
  h_S16000x64 : 0 < S16000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  bcast_S_S40000x128 : S_.BroadcastsInDim S40000x128 (![] : Fin 0 → Fin S40000x128.rank)
  shapeCasts_S256_S1x256 : S256.ShapeCasts S1x256
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x256_S256x256_0_0 : ∀ a, (![0, 0] : Fin 2 → Nat) a + S256x256.size a ≤ S256x256.size a
  h_S256x256 : 0 < S256x256.numel
  inb_S8000x256_S8000x256_0_0 : ∀ a, (![0, 0] : Fin 2 → Nat) a + S8000x256.size a ≤ S8000x256.size a
  h_S8000x256 : 0 < S8000x256.numel
  slices_S40000x256_S1x256_0_0 : S40000x256.Slices ![0, 0] S1x256
  bcast_S_S2048 : S_.BroadcastsInDim S2048 (![] : Fin 0 → Fin S2048.rank)
  bcast_S2048_S2048x1_0 : S2048.BroadcastsInDim S2048x1 (![0] : Fin 1 → Fin S2048x1.rank)
  reduces_S1x256_S1 : S1x256.Reduces [1] S1
  shapeCasts_S1_S1x1 : S1.ShapeCasts S1x1
  broadcasts_S1x1_S1x256 : S1x1.Broadcasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  broadcasts_S1x256_S2048x256 : S1x256.Broadcasts S2048x256
  reduces_S2048x1_S1 : S2048x1.Reduces [0] S1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S40000x128_S640000x1_S640000x128_1_0_n_n_0_1_1128_wf : GatherDims.WF S40000x128 S640000x1 S640000x128 [1] [0] [] [0] [] 1 ![1, 128]
  dot_S16000x64_S64x128_S16000x128_1_0_0_1_n_n_wf : DotDims.WF S16000x64 S64x128 S16000x128 [1] [0] [0] [1] [] []
  scatter_S40000x128_S640000x1_S640000x128_1_0_0_1_wf : ScatterDims.WF S40000x128 S640000x1 S640000x128 [1] [0] [0] 1
  dot_S8000x128_S128x256_S8000x256_1_0_0_1_n_n_wf : DotDims.WF S8000x128 S128x256 S8000x256 [1] [0] [0] [1] [] []
  dot_S8000x256_S256x256_S8000x256_1_0_0_1_n_n_wf : DotDims.WF S8000x256 S256x256 S8000x256 [1] [0] [0] [1] [] []
  gather_S40000x256_S2048x1_S2048x256_1_0_n_n_0_1_1256_wf : GatherDims.WF S40000x256 S2048x1 S2048x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S640000x128.size a
  hwx0_0 : ∀ i : grid0.Coords, EltTy.bits .f32 = 32 ∨ (Rect.block (s := S640000x128) S16000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S640000x64.size a
  hwx0_1 : ∀ i : grid0.Coords, EltTy.bits .f32 = 32 ∨ (Rect.block (s := S640000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x128.size a ≤ S640000x128.size a
  hwx0_4 : ∀ i : grid0.Coords, EltTy.bits .f32 = 32 ∨ (Rect.block (s := S640000x128) S16000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S40000x128.size a
  hwx1_0 : ∀ i : grid1.Coords, EltTy.bits .f32 = 32 ∨ (Rect.block (s := S40000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S40000x128.size a
  hwx1_1 : ∀ i : grid1.Coords, EltTy.bits .f32 = 32 ∨ (Rect.block (s := S40000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x256.size a ≤ S40000x256.size a
  hwx1_6 : ∀ i : grid1.Coords, EltTy.bits .f32 = 32 ∨ (Rect.block (s := S40000x256) S8000x256.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x256.size a ≤ S1x256.size a
  hwx2_0 : ∀ i : grid2.Coords, EltTy.bits .f32 = 32 ∨ (Rect.block (s := S1x256) S1x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x256.size a
  hwx2_1 : ∀ i : grid2.Coords, EltTy.bits .f32 = 32 ∨ (Rect.block (s := S2048x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S2048x256.size a
  hwx2_2 : ∀ i : grid2.Coords, EltTy.bits .f32 = 32 ∨ (Rect.block (s := S2048x256) S2048x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def gather_S40000x256_S2048x1_S2048x256_1_0_n_n_0_1_1256 : GatherDims S40000x256 S2048x1 S2048x256 where
  offsetDims := [1]
  collapsedSliceDims := [0]
  operandBatchingDims := []
  startIndicesBatchingDims := []
  startIndexMap := [0]
  indexVectorDim := 1
  sliceSizes := ![1, 256]
  wf := gather_S40000x256_S2048x1_S2048x256_1_0_n_n_0_1_1256_wf

abbrev win0_0 : Pipeline.Window sig grid0 :=
  Pipeline.Window.ofSpec (Memref.whole main_v10) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S16000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S8000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19) S1x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2048x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S2048x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x64 : Shape := ⟨2, ![640000, 64]⟩
abbrev S2048 : Shape := ⟨1, ![2048]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S1x640000 : Shape := ⟨2, ![1, 640000]⟩
abbrev S640000 : Shape := ⟨1, ![640000]⟩
abbrev S640000x128 : Shape := ⟨2, ![640000, 128]⟩
abbrev S1x128 : Shape := ⟨2, ![1, 128]⟩
abbrev S_ : Shape := ⟨0, ![]⟩
abbrev S640000x1 : Shape := ⟨2, ![640000, 1]⟩
abbrev S40000x256 : Shape := ⟨2, ![40000, 256]⟩
abbrev S1 : Shape := ⟨1, ![1]⟩
abbrev S2048x1 : Shape := ⟨2, ![2048, 1]⟩
abbrev S2048x256 : Shape := ⟨2, ![2048, 256]⟩
abbrev S1x1 : Shape := ⟨2, ![1, 1]⟩

abbrev nBuf : Space → Nat
  | .hbm => 180
  | .vmem => 0
  | .smem => 0
  | _ => 0

abbrev hbmTy0_0 (i : Nat) : BufTy := match i % 128 with
  | 0 => ⟨S40000x128, .f32⟩
  | 1 => ⟨S2x640000, .i32⟩
  | 2 => ⟨S640000x64, .f32⟩
  | 3 => ⟨S2048, .i32⟩
  | 4 => ⟨S2048, .i32⟩
  | 5 => ⟨S64x128, .f32⟩
  | 6 => ⟨S128, .f32⟩
  | 7 => ⟨S128x256, .f32⟩
  | 8 => ⟨S256, .f32⟩
  | 9 => ⟨S256x256, .f32⟩
  | 10 => ⟨S256, .f32⟩
  | 11 => ⟨S1x256, .f32⟩
  | 12 => ⟨S1x640000, .i32⟩
  | 13 => ⟨S640000, .i32⟩
  | 14 => ⟨S1x640000, .i32⟩
  | 15 => ⟨S640000, .i32⟩
  | 16 => ⟨S640000x128, .f32⟩
  | 17 => ⟨S1x128, .f32⟩
  | 18 => ⟨S640000x128, .f32⟩
  | 19 => ⟨S640000x128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S640000x128, .f32⟩
  | 30 => ⟨S_, .f32⟩
  | 31 => ⟨S640000x128, .f32⟩
  | 32 => ⟨S640000x128, .f32⟩
  | 33 => ⟨S_, .f32⟩
  | 34 => ⟨S40000x128, .f32⟩
  | 35 => ⟨S640000x1, .i32⟩
  | 36 => ⟨S40000x128, .f32⟩
  | 37 => ⟨S_, .f32⟩
  | 38 => ⟨S40000x128, .f32⟩
  | 39 => ⟨S40000x128, .f32⟩
  | 40 => ⟨S40000x128, .f32⟩
  | 41 => ⟨S40000x256, .f32⟩
  | 42 => ⟨S1x256, .f32⟩
  | 43 => ⟨S40000x256, .f32⟩
  | 44 => ⟨S40000x256, .f32⟩
  | 45 => ⟨S_, .f32⟩
  | 46 => ⟨S40000x256, .f32⟩
  | 47 => ⟨S40000x256, .f32⟩
  | 48 => ⟨S40000x256, .f32⟩
  | 49 => ⟨S1x256, .f32⟩
  | 50 => ⟨S40000x256, .f32⟩
  | 51 => ⟨S40000x256, .f32⟩
  | 52 => ⟨S1x256, .f32⟩
  | 53 => ⟨S256, .f32⟩
  | 54 => ⟨S256, .f32⟩
  | 55 => ⟨S_, .f32⟩
  | 56 => ⟨S_, .f32⟩
  | 57 => ⟨S1, .f32⟩
  | 58 => ⟨S1, .f32⟩
  | 59 => ⟨S_, .f32⟩
  | 60 => ⟨S1, .f32⟩
  | 61 => ⟨S1, .f32⟩
  | 62 => ⟨S256, .f32⟩
  | 63 => ⟨S256, .f32⟩
  | 64 => ⟨S_, .i32⟩
  | 65 => ⟨S2048, .i32⟩
  | 66 => ⟨S2048, .i1⟩
  | 67 => ⟨S_, .i32⟩
  | 68 => ⟨S2048, .i32⟩
  | 69 => ⟨S2048, .i32⟩
  | 70 => ⟨S2048, .i32⟩
  | 71 => ⟨S2048x1, .i32⟩
  | 72 => ⟨S2048x256, .f32⟩
  | 73 => ⟨S2048x256, .f32⟩
  | 74 => ⟨S_, .f32⟩
  | 75 => ⟨S2048, .f32⟩
  | 76 => ⟨S2048x1, .f32⟩
  | 77 => ⟨S2048x1, .f32⟩
  | 78 => ⟨S_, .f32⟩
  | 79 => ⟨S2048x1, .f32⟩
  | 80 => ⟨S2048x1, .f32⟩
  | 81 => ⟨S2048x256, .f32⟩
  | 82 => ⟨S2048x256, .f32⟩
  | 83 => ⟨S_, .i32⟩
  | 84 => ⟨S2048, .i32⟩
  | 85 => ⟨S2048, .i1⟩
  | 86 => ⟨S_, .i32⟩
  | 87 => ⟨S2048, .i32⟩
  | 88 => ⟨S2048, .i32⟩
  | 89 => ⟨S2048, .i32⟩
  | 90 => ⟨S2048x1, .i32⟩
  | 91 => ⟨S2048x256, .f32⟩
  | 92 => ⟨S2048x256, .f32⟩
  | 93 => ⟨S_, .f32⟩
  | 94 => ⟨S2048, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x256, .f32⟩
  | 101 => ⟨S2048x256, .f32⟩
  | 102 => ⟨S1x256, .f32⟩
  | 103 => ⟨S_, .f32⟩
  | 104 => ⟨S1, .f32⟩
  | 105 => ⟨S1x1, .f32⟩
  | 106 => ⟨S1x1, .f32⟩
  | 107 => ⟨S_, .f32⟩
  | 108 => ⟨S1x1, .f32⟩
  | 109 => ⟨S1x1, .f32⟩
  | 110 => ⟨S1x256, .f32⟩
  | 111 => ⟨S1x256, .f32⟩
  | 112 => ⟨S1x256, .f32⟩
  | 113 => ⟨S2048x256, .f32⟩
  | 114 => ⟨S2048x256, .f32⟩
  | 115 => ⟨S_, .f32⟩
  | 116 => ⟨S2048, .f32⟩
  | 117 => ⟨S_, .f32⟩
  | 118 => ⟨S_, .f32⟩
  | 119 => ⟨S_, .f32⟩
  | 120 => ⟨S_, .f32⟩
  | 121 => ⟨S1x256, .f32⟩
  | 122 => ⟨S2048x256, .f32⟩
  | 123 => ⟨S2048x256, .f32⟩
  | 124 => ⟨S_, .f32⟩
  | 125 => ⟨S2048, .f32⟩
  | 126 => ⟨S_, .f32⟩
  | 127 => ⟨S_, .f32⟩
  | _ => ⟨S40000x128, .f32⟩

abbrev hbmTy0_1 (i : Nat) : BufTy := match i % 128 with
  | 0 => ⟨S_, .f32⟩
  | 1 => ⟨S_, .f32⟩
  | 2 => ⟨S1x256, .f32⟩
  | 3 => ⟨S1x256, .f32⟩
  | 4 => ⟨S_, .f32⟩
  | 5 => ⟨S1, .f32⟩
  | 6 => ⟨S1, .f32⟩
  | 7 => ⟨S1, .f32⟩
  | 8 => ⟨S_, .f32⟩
  | 9 => ⟨S1, .f32⟩
  | 10 => ⟨S1, .f32⟩
  | 11 => ⟨S1, .f32⟩
  | 12 => ⟨S1, .f32⟩
  | 13 => ⟨S_, .f32⟩
  | 14 => ⟨S1, .f32⟩
  | 15 => ⟨S1, .f32⟩
  | 16 => ⟨S_, .f32⟩
  | 17 => ⟨S1, .f32⟩
  | 18 => ⟨S1, .f32⟩
  | 19 => ⟨S_, .f32⟩
  | 20 => ⟨S_, .f32⟩
  | 21 => ⟨S1, .f32⟩
  | 22 => ⟨S1, .f32⟩
  | 23 => ⟨S1, .f32⟩
  | 24 => ⟨S_, .f32⟩
  | 25 => ⟨S_, .f32⟩
  | 26 => ⟨S_, .f32⟩
  | 27 => ⟨S_, .f32⟩
  | 28 => ⟨S1, .f32⟩
  | 29 => ⟨S1, .f32⟩
  | 30 => ⟨S_, .f32⟩
  | 31 => ⟨S1, .f32⟩
  | 32 => ⟨S1, .f32⟩
  | 33 => ⟨S1, .f32⟩
  | 34 => ⟨S1, .f32⟩
  | 35 => ⟨S_, .f32⟩
  | 36 => ⟨S1, .f32⟩
  | 37 => ⟨S1, .f32⟩
  | 38 => ⟨S_, .f32⟩
  | 39 => ⟨S1, .f32⟩
  | 40 => ⟨S1, .f32⟩
  | 41 => ⟨S_, .f32⟩
  | 42 => ⟨S_, .f32⟩
  | 43 => ⟨S1, .f32⟩
  | 44 => ⟨S1, .f32⟩
  | 45 => ⟨S1, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_3 : Ref sig .tc := ⟨.hbm, 64, rfl⟩
abbrev main_v39 : Ref sig .tc := ⟨.hbm, 65, rfl⟩
abbrev main_v40 : Ref sig .tc := ⟨.hbm, 66, rfl⟩
abbrev main_c_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_call3_v2 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_6 : Ref sig .tc := ⟨.hbm, 83, rfl⟩
abbrev main_v51 : Ref sig .tc := ⟨.hbm, 84, rfl⟩
abbrev main_v52 : Ref sig .tc := ⟨.hbm, 85, rfl⟩
abbrev main_c_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call4_v0 : Ref sig .tc := ⟨.hbm, 92, rfl⟩
abbrev main_call4_cst : Ref sig .tc := ⟨.hbm, 93, rfl⟩
abbrev main_call4_v1 : Ref sig .tc := ⟨.hbm, 94, rfl⟩
abbrev main_call4_v2 : Ref sig .tc := ⟨.hbm, 95, rfl⟩
abbrev main_v58 : Ref sig .tc := ⟨.hbm, 96, rfl⟩
abbrev main_cst_8 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call5_v0 : Ref sig .tc := ⟨.hbm, 102, rfl⟩
abbrev main_call5_cst : Ref sig .tc := ⟨.hbm, 103, rfl⟩
abbrev main_call5_v1 : Ref sig .tc := ⟨.hbm, 104, rfl⟩
abbrev main_call5_v2 : Ref sig .tc := ⟨.hbm, 105, rfl⟩
abbrev main_v63 : Ref sig .tc := ⟨.hbm, 106, rfl⟩
abbrev main_cst_9 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_10 : Ref sig .tc := ⟨.hbm, 115, rfl⟩
abbrev main_v71 : Ref sig .tc := ⟨.hbm, 116, rfl⟩
abbrev main_cst_11 : Ref sig .tc := ⟨.hbm, 117, rfl⟩
abbrev main_v72 : Ref sig .tc := ⟨.hbm, 118, rfl⟩
abbrev main_cst_12 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_13 : Ref sig .tc := ⟨.hbm, 124, rfl⟩
abbrev main_v77 : Ref sig .tc := ⟨.hbm, 125, rfl⟩
abbrev main_cst_14 : Ref sig .tc := ⟨.hbm, 126, rfl⟩
abbrev main_v78 : Ref sig .tc := ⟨.hbm, 127, rfl⟩
abbrev main_cst_15 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_16 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_17 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_18 : Ref sig .tc := ⟨.hbm, 141, rfl⟩
abbrev main_v89 : Ref sig .tc := ⟨.hbm, 142, rfl⟩
abbrev main_v90 : Ref sig .tc := ⟨.hbm, 143, rfl⟩
abbrev main_cst_19 : Ref sig .tc := ⟨.hbm, 144, rfl⟩
abbrev main_v91 : Ref sig .tc := ⟨.hbm, 145, rfl⟩
abbrev main_v92 : Ref sig .tc := ⟨.hbm, 146, rfl⟩
abbrev main_cst_20 : Ref sig .tc := ⟨.hbm, 147, rfl⟩
abbrev main_call6_v0 : Ref sig .tc := ⟨.hbm, 148, rfl⟩
abbrev main_call6_v1 : Ref sig .tc := ⟨.hbm, 149, rfl⟩
abbrev main_v93 : Ref sig .tc := ⟨.hbm, 150, rfl⟩
abbrev main_v94 : Ref sig .tc := ⟨.hbm, 151, rfl⟩
abbrev main_cst_21 : Ref sig .tc := ⟨.hbm, 152, rfl⟩
abbrev main_v95 : Ref sig .tc := ⟨.hbm, 153, rfl⟩
abbrev main_cst_22 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_23 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_24 : Ref sig .tc := ⟨.hbm, 163, rfl⟩
abbrev main_v103 : Ref sig .tc := ⟨.hbm, 164, rfl⟩
abbrev main_v104 : Ref sig .tc := ⟨.hbm, 165, rfl⟩
abbrev main_cst_25 : Ref sig .tc := ⟨.hbm, 166, rfl⟩
abbrev main_v105 : Ref sig .tc := ⟨.hbm, 167, rfl⟩
abbrev main_v106 : Ref sig .tc := ⟨.hbm, 168, rfl⟩
abbrev main_cst_26 : Ref sig .tc := ⟨.hbm, 169, rfl⟩
abbrev main_call7_v0 : Ref sig .tc := ⟨.hbm, 170, rfl⟩
abbrev main_call7_v1 : Ref sig .tc := ⟨.hbm, 171, rfl⟩
abbrev main_v107 : Ref sig .tc := ⟨.hbm, 172, rfl⟩
abbrev main_v108 : Ref sig .tc := ⟨.hbm, 173, rfl⟩
abbrev main_cst_27 : Ref sig .tc := ⟨.hbm, 174, rfl⟩
abbrev main_v109 : Ref sig .tc := ⟨.hbm, 175, rfl⟩
abbrev main_cst_28 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  slices_S40000x256_S1x256_0_0 : S40000x256.Slices ![0, 0] S1x256
  shapeCasts_S1x256_S256 : S1x256.ShapeCasts S256
  reducesTo_S256_S_d0 : S256.ReducesTo [0] S_
  h_S_ : 0 < S_.numel
  bcast_S_S1 : S_.BroadcastsInDim S1 (![] : Fin 0 → Fin S1.rank)
  bcast_S1_S256_0 : S1.BroadcastsInDim S256 (![0] : Fin 1 → Fin S256.rank)
  bcast_S_S2048 : S_.BroadcastsInDim S2048 (![] : Fin 0 → Fin S2048.rank)
  bcast_S2048_S2048x1_0 : S2048.BroadcastsInDim S2048x1 (![0] : Fin 1 → Fin S2048x1.rank)
  reducesTo_S2048x256_S2048_d1 : S2048x256.ReducesTo [1] S2048
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  reducesTo_S1x256_S1_d1 : S1x256.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  bcast_S1x256_S2048x256_0_1 : S1x256.BroadcastsInDim S2048x256 (![0, 1] : Fin 2 → Fin S2048x256.rank)
  reducesTo_S2048_S_d0 : S2048.ReducesTo [0] S_
  reducesTo_S1_S_d0 : S1.ReducesTo [0] S_
  dot_S640000x64_S64x128_S640000x128_1_0_0_1_n_n_wf : DotDims.WF S640000x64 S64x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x256_S40000x256_1_0_0_1_n_n_wf : DotDims.WF S40000x256 S256x256 S40000x256 [1] [0] [0] [1] [] []
  gather_S40000x256_S2048x1_S2048x256_1_0_n_n_0_1_1256_wf : GatherDims.WF S40000x256 S2048x1 S2048x256 [1] [0] [] [0] [] 1 ![1, 256]

variable [Facts₀]

def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S40000x256_S2048x1_S2048x256_1_0_n_n_0_1_1256 : GatherDims S40000x256 S2048x1 S2048x256 where
  offsetDims := [1]
  collapsedSliceDims := [0]
  operandBatchingDims := []
  startIndicesBatchingDims := []
  startIndexMap := [0]
  indexVectorDim := 1
  sliceSizes := ![1, 256]
  wf := gather_S40000x256_S2048x1_S2048x256_1_0_n_n_0_1_1256_wf

class Facts : Prop extends Facts₀ where

variable [Facts]
-- ==== Proof.RunValue.lean ====
/-
  The idealized kernel's run with its result named: every weakly fair execution of the program terminates, nothing
  faulting, with the result buffer at the last boundary's contents of the fold through the program (host operations
  and the three regions' write-backs in order) and the argument arrays as launched. The launch is the generated frame's:
  the same segments and thread states; only the property read off the last thread state is larger, the result buffer
  beside the arguments.
-/
import proofs.«149798_j86878598463719_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_value : θ_run defs (onTc (τ := τ) (main (F := F))) ⟨m, fun _ => 0, ρ⟩ (fun r => ∀ c : Dev nD,
      r.2.mem ((c.tc : Thread nD τ).loc main_v35) = W7 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v35 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Hand

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.LibDenseRows.lean ====
/-
  The dense steps of a layer as functions of whole matrices, entry by entry, on the extended reals (general in the extents):

    matProd X W   the product of an m×k matrix by a k×n matrix: entry (a, b) is  ∑ c, X (a, c) · W (c, b);
    addRow A B    a one-row matrix B added to every row of A: entry (a, b) is  A (a, b) + B (0, b);
    addRowRelu    the same followed by the rectifier, max (·, 0).

  with the host's forms of the same functions: `dot_general` (contracting [1]×[0]) is `matProd`; the sum with a vector laid
  along every row (the vector made one row, the row laid down the rows) is `addRow` of the vector cast to a one-row matrix;
  that sum followed by `maximum` with the zero constant is `addRowRelu`. A program that computes these a row block at a time
  and one that computes them in one host operation agree entry by entry, in the same order of operations: no law of
  arithmetic is needed to join them, so no finiteness of the inputs either.
  (It imports this directory's copy of LibMatDot.lean: a matrix product read at an entry, row broadcasts read at an entry.)
-/
import proofs.«149798_j86878598463719_2_alg».proof.Proof.LibMatDot

noncomputable section

open scoped BigOperators

namespace Cert.Dense

open Idealize.ShloMosaic Idealize.ShloMosaic.ValueIdx

variable {m k n : ℕ}

/-- The matrix product: entry `(a, b)` is `∑ c, X (a, c) * W (c, b)`. -/
def matProd (X : FVec Ideal ⟨2, ![m, k]⟩ .f32) (W : FVec Ideal ⟨2, ![k, n]⟩ .f32) : FVec Ideal ⟨2, ![m, n]⟩ .f32 :=
  fun i => ∑ c : Fin k, X (ix2 (⟨(i 0).val, idx2_lt0 i⟩ : Fin m) c) * W (ix2 c (⟨(i 1).val, idx2_lt1 i⟩ : Fin n))

theorem matProd_apply (X : FVec Ideal ⟨2, ![m, k]⟩ .f32) (W : FVec Ideal ⟨2, ![k, n]⟩ .f32) (a : Fin m) (b : Fin n) :
    matProd X W (ix2 a b) = ∑ c : Fin k, X (ix2 a c) * W (ix2 c b) := rfl

/-- A one-row matrix added to every row: entry `(a, b)` is `A (a, b) + B (0, b)`. -/
def addRow (A : FVec Ideal ⟨2, ![m, n]⟩ .f32) (B : FVec Ideal ⟨2, ![1, n]⟩ .f32) : FVec Ideal ⟨2, ![m, n]⟩ .f32 :=
  fun i => A i + B (ix2 (0 : Fin 1) (⟨(i 1).val, idx2_lt1 i⟩ : Fin n))

theorem addRow_apply (A : FVec Ideal ⟨2, ![m, n]⟩ .f32) (B : FVec Ideal ⟨2, ![1, n]⟩ .f32) (a : Fin m) (b : Fin n) :
    addRow A B (ix2 a b) = A (ix2 a b) + B (ix2 (0 : Fin 1) b) := rfl

/-- The row added, then the rectifier: entry `(a, b)` is `max (A (a, b) + B (0, b)) 0`. -/
def addRowRelu (A : FVec Ideal ⟨2, ![m, n]⟩ .f32) (B : FVec Ideal ⟨2, ![1, n]⟩ .f32) : FVec Ideal ⟨2, ![m, n]⟩ .f32 :=
  fun i => max (addRow A B i) (Ideal.ofBits .f32 0x00000000#32)

theorem addRowRelu_apply (A : FVec Ideal ⟨2, ![m, n]⟩ .f32) (B : FVec Ideal ⟨2, ![1, n]⟩ .f32) (a : Fin m) (b : Fin n) :
    addRowRelu A B (ix2 a b) = max (A (ix2 a b) + B (ix2 (0 : Fin 1) b)) (Ideal.ofBits .f32 0x00000000#32) := rfl

/-! ## The host's forms of the same functions -/

/-- The host's `dot_general` (contracting [1]×[0]) is the matrix product. -/
theorem dotGeneral_eq (w : DotDims.WF ⟨2, ![m, k]⟩ ⟨2, ![k, n]⟩ ⟨2, ![m, n]⟩ [1] [0] [0] [1] [] [])
    (prec : Option ContractPrecision) (X : FVec Ideal ⟨2, ![m, k]⟩ .f32) (W : FVec Ideal ⟨2, ![k, n]⟩ .f32) :
    Host.dotGeneral (⟨[1], [0], [0], [1], [], [], w⟩ : DotDims ⟨2, ![m, k]⟩ ⟨2, ![k, n]⟩ ⟨2, ![m, n]⟩) prec X W = matProd X W := by
  funext i
  obtain ⟨a, b, rfl⟩ : ∃ (a : Fin m) (b : Fin n), i = ix2 a b := ⟨i 0, i 1, eq_ix2 i⟩
  rw [matProd_apply]
  exact Cert.Lib.MatDot.dotGeneral_apply w prec X W a b

/-- The host's sum with a vector laid along every row (the vector made one row, the row laid down the rows) is `addRow` of
    the vector as a one-row matrix. -/
theorem add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (A : FVec Ideal ⟨2, ![m, n]⟩ .f32) (x : FVec Ideal ⟨1, ![n]⟩ .f32) :
    addf A (broadcastInDim ⟨2, ![m, n]⟩ ![0, 1] h2 (broadcastInDim ⟨2, ![1, n]⟩ ![1] h1 x)) = addRow A (shapeCast ⟨2, ![1, n]⟩ x hc) := by
  funext i
  obtain ⟨a, b, rfl⟩ : ∃ (a : Fin m) (b : Fin n), i = ix2 a b := ⟨i 0, i 1, eq_ix2 i⟩
  rw [addRow_apply, addf_apply, Cert.Lib.MatDot.broadcastInDim_vec_rows_apply h1 h2 x a b, shapeCast_a_1a_apply x hc 0 b]

/-- The host's rectifier, `maximum` with the zero constant laid over the shape. -/
theorem relu_add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (h0 : (⟨0, ![]⟩ : Shape).BroadcastsInDim ⟨2, ![m, n]⟩ ![])
    (A : FVec Ideal ⟨2, ![m, n]⟩ .f32) (x : FVec Ideal ⟨1, ![n]⟩ .f32) :
    maximumf (addf A (broadcastInDim ⟨2, ![m, n]⟩ ![0, 1] h2 (broadcastInDim ⟨2, ![1, n]⟩ ![1] h1 x)))
        (broadcastInDim ⟨2, ![m, n]⟩ ![] h0 (constant (F := Ideal) ⟨0, ![]⟩ .f32 0x00000000#32))
      = addRowRelu A (shapeCast ⟨2, ![1, n]⟩ x hc) := by
  rw [add_rows_eq h1 h2 hc]
  funext i
  show max _ (broadcastInDim ⟨2, ![m, n]⟩ ![] h0 (constant (F := Ideal) ⟨0, ![]⟩ .f32 0x00000000#32) i) = _
  rw [broadcastInDim_scalar_apply]
  rfl

end Cert.Dense

end
-- ==== Proof.Spec.lean ====
/-
  The two dense stages of the network as functions of whole arrays on the extended reals, general in the extents.

    edgeMsg XS EA We B     the message of every edge: entry (e, j) is  max (XS (e, j) + (∑ c, EA (e, c) · We (c, j) + B (0, j))) 0;
    nodeEmb X AGG W1 B1 W2 B2   the embedding of every node: with h = 1 · X + AGG, entry (v, j) is
                           ∑ k, max (∑ c, h (v, c) · W1 (c, k) + B1 (0, k)) 0 · W2 (k, j) + B2 (0, j).

  Both are computed row by row: an entry of row r depends on row r of the row-indexed operands only, so the same function
  applied to a block of consecutive rows gives that block of rows of the result.
-/
import proofs.«149798_j86878598463719_2_alg».proof.Proof.LibDenseRows

noncomputable section

open scoped BigOperators

namespace Cert.Spec

open Idealize.ShloMosaic Idealize.ShloMosaic.ValueIdx Cert.Dense

variable {m m' k n h : ℕ}

/-- The f32 words of zero and of one, as extended reals. -/
abbrev zeroW : EReal := Ideal.ofBits .f32 0x00000000#32
abbrev oneW : EReal := Ideal.ofBits .f32 0x3F800000#32

/-- The message of every edge. -/
def edgeMsg (XS : FVec Ideal ⟨2, ![m, n]⟩ .f32) (EA : FVec Ideal ⟨2, ![m, k]⟩ .f32) (We : FVec Ideal ⟨2, ![k, n]⟩ .f32)
    (B : FVec Ideal ⟨2, ![1, n]⟩ .f32) : FVec Ideal ⟨2, ![m, n]⟩ .f32 :=
  fun i => max (XS i + addRow (matProd EA We) B i) zeroW

theorem edgeMsg_apply (XS : FVec Ideal ⟨2, ![m, n]⟩ .f32) (EA : FVec Ideal ⟨2, ![m, k]⟩ .f32) (We : FVec Ideal ⟨2, ![k, n]⟩ .f32)
    (B : FVec Ideal ⟨2, ![1, n]⟩ .f32) (a : Fin m) (b : Fin n) :
    edgeMsg XS EA We B (ix2 a b) = max (XS (ix2 a b) + ((∑ c : Fin k, EA (ix2 a c) * We (ix2 c b)) + B (ix2 (0 : Fin 1) b))) zeroW := rfl

/-- Row p of the messages of a block of rows is row r of the messages of the whole, when row p of the block's operands
    is row r of the whole's. -/
theorem edgeMsg_rows (XS : FVec Ideal ⟨2, ![m, n]⟩ .f32) (EA : FVec Ideal ⟨2, ![m, k]⟩ .f32)
    (XS' : FVec Ideal ⟨2, ![m', n]⟩ .f32) (EA' : FVec Ideal ⟨2, ![m', k]⟩ .f32) (We : FVec Ideal ⟨2, ![k, n]⟩ .f32)
    (B : FVec Ideal ⟨2, ![1, n]⟩ .f32) (p : Fin m') (r : Fin m) (q : Fin n)
    (hXS : ∀ c : Fin n, XS' (ix2 p c) = XS (ix2 r c)) (hEA : ∀ c : Fin k, EA' (ix2 p c) = EA (ix2 r c)) :
    edgeMsg XS' EA' We B (ix2 p q) = edgeMsg XS EA We B (ix2 r q) := by
  rw [edgeMsg_apply, edgeMsg_apply, hXS q]
  simp only [hEA]

/-- The sum 1 · X + AGG entry by entry. -/
def selfPlus (X AGG : FVec Ideal ⟨2, ![m, k]⟩ .f32) : FVec Ideal ⟨2, ![m, k]⟩ .f32 := fun i => oneW * X i + AGG i

/-- The embedding of every node. -/
def nodeEmb (X AGG : FVec Ideal ⟨2, ![m, k]⟩ .f32) (W1 : FVec Ideal ⟨2, ![k, h]⟩ .f32) (B1 : FVec Ideal ⟨2, ![1, h]⟩ .f32)
    (W2 : FVec Ideal ⟨2, ![h, n]⟩ .f32) (B2 : FVec Ideal ⟨2, ![1, n]⟩ .f32) : FVec Ideal ⟨2, ![m, n]⟩ .f32 :=
  addRow (matProd (addRowRelu (matProd (selfPlus X AGG) W1) B1) W2) B2

theorem nodeEmb_apply (X AGG : FVec Ideal ⟨2, ![m, k]⟩ .f32) (W1 : FVec Ideal ⟨2, ![k, h]⟩ .f32) (B1 : FVec Ideal ⟨2, ![1, h]⟩ .f32)
    (W2 : FVec Ideal ⟨2, ![h, n]⟩ .f32) (B2 : FVec Ideal ⟨2, ![1, n]⟩ .f32) (a : Fin m) (b : Fin n) :
    nodeEmb X AGG W1 B1 W2 B2 (ix2 a b)
      = (∑ j : Fin h, max ((∑ c : Fin k, (oneW * X (ix2 a c) + AGG (ix2 a c)) * W1 (ix2 c j)) + B1 (ix2 (0 : Fin 1) j)) zeroW * W2 (ix2 j b))
        + B2 (ix2 (0 : Fin 1) b) := rfl

/-- Row p of the embeddings of a block of rows is row r of the embeddings of the whole. -/
theorem nodeEmb_rows (X AGG : FVec Ideal ⟨2, ![m, k]⟩ .f32) (X' AGG' : FVec Ideal ⟨2, ![m', k]⟩ .f32)
    (W1 : FVec Ideal ⟨2, ![k, h]⟩ .f32) (B1 : FVec Ideal ⟨2, ![1, h]⟩ .f32)
    (W2 : FVec Ideal ⟨2, ![h, n]⟩ .f32) (B2 : FVec Ideal ⟨2, ![1, n]⟩ .f32) (p : Fin m') (r : Fin m) (q : Fin n)
    (hX : ∀ c : Fin k, X' (ix2 p c) = X (ix2 r c)) (hA : ∀ c : Fin k, AGG' (ix2 p c) = AGG (ix2 r c)) :
    nodeEmb X' AGG' W1 B1 W2 B2 (ix2 p q) = nodeEmb X AGG W1 B1 W2 B2 (ix2 r q) := by
  rw [nodeEmb_apply, nodeEmb_apply]
  simp only [hX, hA]

end Cert.Spec

end
-- ==== Proof.Payloads.lean ====
/-
  What the edge kernel and the node kernel compute on one block of rows: the body of the edge kernel is the message function
  of its loaded blocks, the body of the node kernel the embedding function of its loaded blocks — the same whole-array
  functions that describe the full arrays, at the block's extents (the matrix products into a zero accumulator are sums over the
  contracted coordinate; the one-row bias block is laid down the rows).
-/
import proofs.«149798_j86878598463719_2_alg».proof.Proof.Gen.KernelIdeal.Skeleton
import proofs.«149798_j86878598463719_2_alg».proof.Proof.Spec

noncomputable section

open scoped BigOperators

namespace Cert.KernelIdeal.Hand

open Cert.KernelIdeal Cert.KernelIdeal.Gen Idealize.ShloMosaic Idealize.ShloMosaic.ValueIdx

/-- The edge kernel's stored value is the message function of its blocks. -/
theorem edge_payload (v0 : Vec Ideal S16000x64 .f32) (v1 : Vec Ideal S64x128 .f32) (v3 : Vec Ideal S1x128 .f32) (v7 : Vec Ideal S16000x128 .f32) :
    k0_pay1 (F := Ideal) v0 v1 v3 v7 = Cert.Spec.edgeMsg v7 v0 v1 v3 := by
  funext i
  obtain ⟨p, q, rfl⟩ : ∃ (p : Fin 16000) (q : Fin 128), i = ix2 p q := ⟨i 0, i 1, eq_ix2 i⟩
  rw [Cert.Spec.edgeMsg_apply]
  unfold k0_pay1
  show max (shapeCast S16000x128 v7 shapeCasts_S16000x128_S16000x128 (ix2 p q)
      + (matmul dot_S16000x64_S64x128_S16000x128_1_0_0_1_n_n none v0 v1 (constant (F := Ideal) S16000x128 .f32 0x00000000#32) (ix2 p q)
        + broadcastTo S16000x128 (shapeCast S1x128 v3 shapeCasts_S1x128_S1x128) broadcasts_S1x128_S16000x128 (ix2 p q))) Cert.Spec.zeroW = _
  rw [shapeCast_self, shapeCast_self, broadcastTo_1b_ab_apply]
  exact congrArg (fun z => max (v7 (ix2 p q) + (z + v3 (ix2 (0 : Fin 1) q))) Cert.Spec.zeroW)
    (Cert.Lib.MatDot.matmul_zero_apply dot_S16000x64_S64x128_S16000x128_1_0_0_1_n_n.wf none v0 v1 p q)

/-- The node kernel's stored value is the embedding function of its blocks. -/
theorem node_payload (v0 v3 : Vec Ideal S8000x128 .f32) (v6 : Vec Ideal S128x256 .f32) (v8 : Vec Ideal S1x256 .f32)
    (v14 : Vec Ideal S256x256 .f32) (v16 : Vec Ideal S1x256 .f32) :
    k1_pay1 (F := Ideal) v0 v3 v6 v8 v14 v16 = Cert.Spec.nodeEmb v0 v3 v6 v8 v14 v16 := by
  have hsum : addf (mulf (broadcast S8000x128 (Scalar.ofBits (F := Ideal) .f32 0x3F800000#32)) v0) (shapeCast S8000x128 v3 shapeCasts_S8000x128_S8000x128)
      = Cert.Spec.selfPlus v0 v3 := by
    rw [shapeCast_self]; rfl
  have hmid : maximumf (addf (matmul (φ₁ := .f32) (φ₂ := .f32) dot_S8000x128_S128x256_S8000x256_1_0_0_1_n_n none (Cert.Spec.selfPlus v0 v3) (v6 : FVec Ideal S128x256 .f32) (constant (F := Ideal) S8000x256 .f32 0x00000000#32))
        (broadcastTo S8000x256 (shapeCast S1x256 v8 shapeCasts_S1x256_S1x256) broadcasts_S1x256_S8000x256))
        (broadcast S8000x256 (Scalar.ofBits (F := Ideal) .f32 0x00000000#32))
      = Cert.Dense.addRowRelu (Cert.Dense.matProd (Cert.Spec.selfPlus v0 v3) v6) v8 := by
    funext i
    obtain ⟨p, q, rfl⟩ : ∃ (p : Fin 8000) (q : Fin 256), i = ix2 p q := ⟨i 0, i 1, eq_ix2 i⟩
    rw [Cert.Dense.addRowRelu_apply, Cert.Dense.matProd_apply]
    show max (matmul dot_S8000x128_S128x256_S8000x256_1_0_0_1_n_n none (Cert.Spec.selfPlus v0 v3) (v6 : FVec Ideal S128x256 .f32) (constant (F := Ideal) S8000x256 .f32 0x00000000#32) (ix2 p q)
        + broadcastTo S8000x256 (shapeCast S1x256 v8 shapeCasts_S1x256_S1x256) broadcasts_S1x256_S8000x256 (ix2 p q)) Cert.Spec.zeroW = _
    rw [shapeCast_self, broadcastTo_1b_ab_apply]
    exact congrArg (fun z => max (z + v8 (ix2 (0 : Fin 1) q)) Cert.Spec.zeroW)
      (Cert.Lib.MatDot.matmul_zero_apply dot_S8000x128_S128x256_S8000x256_1_0_0_1_n_n.wf none (Cert.Spec.selfPlus v0 v3) v6 p q)
  funext i
  obtain ⟨p, q, rfl⟩ : ∃ (p : Fin 8000) (q : Fin 256), i = ix2 p q := ⟨i 0, i 1, eq_ix2 i⟩
  unfold k1_pay1
  show (matmul dot_S8000x256_S256x256_S8000x256_1_0_0_1_n_n none
        (maximumf (addf (matmul dot_S8000x128_S128x256_S8000x256_1_0_0_1_n_n none
            (addf (mulf (broadcast S8000x128 (Scalar.ofBits (F := Ideal) .f32 0x3F800000#32)) v0) (shapeCast S8000x128 v3 shapeCasts_S8000x128_S8000x128))
            v6 (constant (F := Ideal) S8000x256 .f32 0x00000000#32))
          (broadcastTo S8000x256 (shapeCast S1x256 v8 shapeCasts_S1x256_S1x256) broadcasts_S1x256_S8000x256))
          (broadcast S8000x256 (Scalar.ofBits (F := Ideal) .f32 0x00000000#32)))
        v14 (constant (F := Ideal) S8000x256 .f32 0x00000000#32) (ix2 p q)
      + broadcastTo S8000x256 (shapeCast S1x256 v16 shapeCasts_S1x256_S1x256) broadcasts_S1x256_S8000x256 (ix2 p q)) = _
  rw [hsum, hmid, shapeCast_self, broadcastTo_1b_ab_apply]
  exact congrArg (fun z => z + v16 (ix2 (0 : Fin 1) q))
    (Cert.Lib.MatDot.matmul_zero_apply dot_S8000x256_S256x256_S8000x256_1_0_0_1_n_n.wf none _ v14 p q)

end Cert.KernelIdeal.Hand

end
-- ==== Proof.EdgeRegion.lean ====
/-
  The first region (the edge kernel over 40 blocks of 16000 edges), from its blocks to its array: whatever the buffers hold
  when the region is entered, the message array ends as the message function of the gathered rows, the edge attributes, the
  projection weights and the one-row bias as the region finds them. Block t of an edge-indexed operand is rows
  16000 t .. 16000 t + 15999 of its array, the weights and the bias are whole at every point, the messages are computed row by
  row, and the 40 written blocks tile the array.
-/
import proofs.«149798_j86878598463719_2_alg».proof.Proof.Gen.KernelIdeal.Frame
import proofs.«149798_j86878598463719_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the edge-indexed windows are at block row t, the weights and the bias at block 0. -/
theorem edge_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem edge_point_lt (t : Fin cfg0.N) : t.val < 40 := by
  have h : t.val < grid0.N := t.isLt
  have e : grid0.N = 40 := N_0
  omega

/-- Row p of block t of the gathered rows is row 16000 t + p of the array. -/
theorem edge_blk0 (c : Dev nD) (t : Fin cfg0.N) (p : Fin 16000) (q : Fin 128) (r : Fin 640000) (hr : r.val = 16000 * t.val + p.val) :
    (iblk0 V c 0 t : Vec Ideal S16000x128 .f32) (ix2 p q) = (V c main_v10 : Vec Ideal S640000x128 .f32) (ix2 r q) := by
  obtain ⟨e00, e01, -⟩ := edge_index_facts t
  show V c main_v10 (((cfg0.win 0).blk t).view.emb (ix2 p q)) = V c main_v10 (ix2 r q)
  refine congrArg _ (funext fun a => Fin.ext ?_)
  match a with
  | ⟨0, _⟩ => show win0_0.index t (0 : Fin 2) * 16000 + 1 * p.val = r.val; rw [e00, hr]; omega
  | ⟨1, _⟩ => show win0_0.index t (1 : Fin 2) * 128 + 1 * q.val = q.val; rw [e01]; omega

/-- Row p of block t of the edge attributes is row 16000 t + p of the array. -/
theorem edge_blk1 (c : Dev nD) (t : Fin cfg0.N) (p : Fin 16000) (q : Fin 64) (r : Fin 640000) (hr : r.val = 16000 * t.val + p.val) :
    (iblk0 V c 1 t : Vec Ideal S16000x64 .f32) (ix2 p q) = (V c main_arg2 : Vec Ideal S640000x64 .f32) (ix2 r q) := by
  obtain ⟨-, -, e10, e11, -⟩ := edge_index_facts t
  show V c main_arg2 (((cfg0.win 1).blk t).view.emb (ix2 p q)) = V c main_arg2 (ix2 r q)
  refine congrArg _ (funext fun a => Fin.ext ?_)
  match a with
  | ⟨0, _⟩ => show win0_1.index t (0 : Fin 2) * 16000 + 1 * p.val = r.val; rw [e10, hr]; omega
  | ⟨1, _⟩ => show win0_1.index t (1 : Fin 2) * 64 + 1 * q.val = q.val; rw [e11]; omega

/-- The weights' block is the whole array at every point. -/
theorem edge_blk2 (c : Dev nD) (t : Fin cfg0.N) : (iblk0 V c 2 t : Vec Ideal S64x128 .f32) = (V c main_arg5 : Vec Ideal S64x128 .f32) := by
  obtain ⟨-, -, -, -, e20, e21, -⟩ := edge_index_facts t
  funext y
  show V c main_arg5 (((cfg0.win 2).blk t).view.emb y) = V c main_arg5 y
  refine congrArg _ (funext fun a => Fin.ext ?_)
  match a with
  | ⟨0, _⟩ => show win0_2.index t (0 : Fin 2) * 64 + 1 * (y 0).val = (y 0).val; rw [e20]; omega
  | ⟨1, _⟩ => show win0_2.index t (1 : Fin 2) * 128 + 1 * (y 1).val = (y 1).val; rw [e21]; omega

/-- The bias row's block is the whole array at every point. -/
theorem edge_blk3 (c : Dev nD) (t : Fin cfg0.N) : (iblk0 V c 3 t : Vec Ideal S1x128 .f32) = (V c main_v11 : Vec Ideal S1x128 .f32) := by
  obtain ⟨-, -, -, -, -, -, e30, e31, -⟩ := edge_index_facts t
  funext y
  show V c main_v11 (((cfg0.win 3).blk t).view.emb y) = V c main_v11 y
  refine congrArg _ (funext fun a => Fin.ext ?_)
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

/-- The messages of the whole edge list, from the arrays as the region finds them. -/
abbrev edgeArray (c : Dev nD) : Vec Ideal S640000x128 .f32 :=
  Cert.Spec.edgeMsg (V c main_v10 : Vec Ideal S640000x128 .f32) (V c main_arg2 : Vec Ideal S640000x64 .f32)
    (V c main_arg5 : Vec Ideal S64x128 .f32) (V c main_v11 : Vec Ideal S1x128 .f32)

/-- What point t writes back is block t of the messages of the whole edge list. -/
theorem edge_flushed (c : Dev nD) (t : Fin cfg0.N) :
    (dat0 V c).flushed 4 t = ((cfg0.win 4).blk t).view.read (Elt Ideal) (edgeArray V c) := by
  show (cfg0.win 4).cut (grid0.coords t) ((dat0 V c).after 4 t) = _
  rw [after0_4]
  unfold out0_4
  rw [View.canon_unit_zero zero_offsets]
  simp only [View.ld_unit_zero (S := S16000x64) zero_offsets, View.ld_unit_zero (S := S64x128) zero_offsets,
    View.ld_unit_zero (S := S1x128) zero_offsets, View.ld_unit_zero (S := S16000x128) zero_offsets]
  rw [edge_payload, edge_blk2 V c t, edge_blk3 V c t]
  obtain ⟨-, -, -, -, -, -, -, -, e40, e41⟩ := edge_index_facts t
  have ht := edge_point_lt t
  funext j
  obtain ⟨p, q, rfl⟩ : ∃ (p : Fin 16000) (q : Fin 128), j = ix2 p q := ⟨j 0, j 1, eq_ix2 j⟩
  have hp := p.isLt
  have hemb : ((cfg0.win 4).blk t).view.emb (ix2 p q) = (ix2 (⟨16000 * t.val + p.val, by omega⟩ : Fin 640000) q : S640000x128.Idx) := by
    funext a; apply Fin.ext
    match a with
    | ⟨0, _⟩ => show win0_4.index t (0 : Fin 2) * 16000 + 1 * p.val = 16000 * t.val + p.val; rw [e40]; omega
    | ⟨1, _⟩ => show win0_4.index t (1 : Fin 2) * 128 + 1 * q.val = q.val; rw [e41]; omega
  show Cert.Spec.edgeMsg (iblk0 V c 0 t : Vec Ideal S16000x128 .f32) (iblk0 V c 1 t : Vec Ideal S16000x64 .f32) _ _ (ix2 p q)
    = edgeArray V c (((cfg0.win 4).blk t).view.emb (ix2 p q))
  rw [hemb]
  exact Cert.Spec.edgeMsg_rows _ _ _ _ _ _ p ⟨16000 * t.val + p.val, by omega⟩ q
    (fun c' => edge_blk0 V c t p c' _ rfl) (fun c' => edge_blk1 V c t p c' _ rfl)

/-- An index of the message array is in point t's block iff each coordinate is in the block's range on its axis. -/
theorem edge_mem_blk (t : Fin cfg0.N) (i : S640000x128.Idx) :
    i ∈ ((cfg0.win 4).blk t).view.set ↔ ∀ a : Fin 2, win0_4.index t a * S16000x128.size a ≤ (i a).val ∧ (i a).val < win0_4.index t a * S16000x128.size a + S16000x128.size a := by
  show i ∈ ((View.whole main_v12).slice (win0_4.rect t)).set ↔ _
  rw [View.set_slice_whole, Rect.mem_set_unit]
  exact Iff.rfl

/-- The message array after the region: the messages of the whole edge list. -/
theorem edge_final (c : Dev nD) : (dat0 V c).arrAt 4 cfg0.N = edgeArray V c :=
  (dat0 V c).arrAt_eq_of_cover 4 (edgeArray V c) (fun t _ => edge_flushed V c t) fun i => by
    have h0 : (i 0).val < 640000 := (i 0).isLt
    have h1 : (i 1).val < 128 := (i 1).isLt
    refine ⟨⟨(i 0).val / 16000, by rw [show cfg0.N = 40 from N_0]; omega⟩, flush0_4 _, ?_⟩
    rw [edge_mem_blk]
    obtain ⟨-, -, -, -, -, -, -, -, e40, e41⟩ := edge_index_facts ⟨(i 0).val / 16000, by rw [show cfg0.N = 40 from N_0]; omega⟩
    intro a
    match a with
    | ⟨0, _⟩ =>
      show win0_4.index _ (0 : Fin 2) * 16000 ≤ (i 0).val ∧ (i 0).val < win0_4.index _ (0 : Fin 2) * 16000 + 16000
      rw [e40]; show (i 0).val / 16000 * 16000 ≤ (i 0).val ∧ (i 0).val < (i 0).val / 16000 * 16000 + 16000; omega
    | ⟨1, _⟩ =>
      show win0_4.index _ (1 : Fin 2) * 128 ≤ (i 1).val ∧ (i 1).val < win0_4.index _ (1 : Fin 2) * 128 + 128
      rw [e41]; omega

end Cert.KernelIdeal.Hand

end
-- ==== Proof.NodeRegion.lean ====
/-
  The second region (the node kernel over 5 blocks of 8000 nodes), from its blocks to its array: whatever the buffers hold when
  the region is entered, the embedding array ends as the embedding function of the node features, the aggregated messages,
  the two weight matrices and the two one-row biases as the region finds them. Block t of a node-indexed operand is rows
  8000 t .. 8000 t + 7999 of its array, the weights and biases are whole at every point, the embeddings are computed row by
  row, and the 5 written blocks tile the array.
-/
import proofs.«149798_j86878598463719_2_alg».proof.Proof.Gen.KernelIdeal.Frame
import proofs.«149798_j86878598463719_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets' : (![0, 0] : Fin 2 → Nat) = fun _ => 0 := funext fun a => by fin_cases a <;> rfl

/-- The printed index maps over the grid: the node-indexed windows are at block row t, the weights and biases at block 0. -/
theorem node_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem node_point_lt (t : Fin cfg1.N) : t.val < 5 := by
  have h : t.val < grid1.N := t.isLt
  have e : grid1.N = 5 := N_1
  omega

/-- Row p of block t of the node features is row 8000 t + p of the array. -/
theorem node_blk0 (c : Dev nD) (t : Fin cfg1.N) (p : Fin 8000) (q : Fin 128) (r : Fin 40000) (hr : r.val = 8000 * t.val + p.val) :
    (iblk1 V c 0 t : Vec Ideal S8000x128 .f32) (ix2 p q) = (V c main_arg0 : Vec Ideal S40000x128 .f32) (ix2 r q) := by
  obtain ⟨e00, e01, -⟩ := node_index_facts t
  show V c main_arg0 (((cfg1.win 0).blk t).view.emb (ix2 p q)) = V c main_arg0 (ix2 r q)
  refine congrArg _ (funext fun a => Fin.ext ?_)
  match a with
  | ⟨0, _⟩ => show win1_0.index t (0 : Fin 2) * 8000 + 1 * p.val = r.val; rw [e00, hr]; omega
  | ⟨1, _⟩ => show win1_0.index t (1 : Fin 2) * 128 + 1 * q.val = q.val; rw [e01]; omega

/-- Row p of block t of the aggregated messages is row 8000 t + p of the array. -/
theorem node_blk1 (c : Dev nD) (t : Fin cfg1.N) (p : Fin 8000) (q : Fin 128) (r : Fin 40000) (hr : r.val = 8000 * t.val + p.val) :
    (iblk1 V c 1 t : Vec Ideal S8000x128 .f32) (ix2 p q) = (V c main_v15 : Vec Ideal S40000x128 .f32) (ix2 r q) := by
  obtain ⟨-, -, e10, e11, -⟩ := node_index_facts t
  show V c main_v15 (((cfg1.win 1).blk t).view.emb (ix2 p q)) = V c main_v15 (ix2 r q)
  refine congrArg _ (funext fun a => Fin.ext ?_)
  match a with
  | ⟨0, _⟩ => show win1_1.index t (0 : Fin 2) * 8000 + 1 * p.val = r.val; rw [e10, hr]; omega
  | ⟨1, _⟩ => show win1_1.index t (1 : Fin 2) * 128 + 1 * q.val = q.val; rw [e11]; omega

/-- The first weights' block is the whole array at every point. -/
theorem node_blk2 (c : Dev nD) (t : Fin cfg1.N) : (iblk1 V c 2 t : Vec Ideal S128x256 .f32) = (V c main_arg7 : Vec Ideal S128x256 .f32) := by
  obtain ⟨-, -, -, -, e20, e21, -⟩ := node_index_facts t
  funext y
  show V c main_arg7 (((cfg1.win 2).blk t).view.emb y) = V c main_arg7 y
  refine congrArg _ (funext fun a => Fin.ext ?_)
  match a with
  | ⟨0, _⟩ => show win1_2.index t (0 : Fin 2) * 128 + 1 * (y 0).val = (y 0).val; rw [e20]; omega
  | ⟨1, _⟩ => show win1_2.index t (1 : Fin 2) * 256 + 1 * (y 1).val = (y 1).val; rw [e21]; omega

/-- The first bias row's block is the whole array at every point. -/
theorem node_blk3 (c : Dev nD) (t : Fin cfg1.N) : (iblk1 V c 3 t : Vec Ideal S1x256 .f32) = (V c main_v16 : Vec Ideal S1x256 .f32) := by
  obtain ⟨-, -, -, -, -, -, e30, e31, -⟩ := node_index_facts t
  funext y
  show V c main_v16 (((cfg1.win 3).blk t).view.emb y) = V c main_v16 y
  refine congrArg _ (funext fun a => Fin.ext ?_)
  match a with
  | ⟨0, _⟩ => show win1_3.index t (0 : Fin 2) * 1 + 1 * (y 0).val = (y 0).val; rw [e30]; omega
  | ⟨1, _⟩ => show win1_3.index t (1 : Fin 2) * 256 + 1 * (y 1).val = (y 1).val; rw [e31]; omega

/-- The second weights' block is the whole array at every point. -/
theorem node_blk4 (c : Dev nD) (t : Fin cfg1.N) : (iblk1 V c 4 t : Vec Ideal S256x256 .f32) = (V c main_arg9 : Vec Ideal S256x256 .f32) := by
  obtain ⟨-, -, -, -, -, -, -, -, e40, e41, -⟩ := node_index_facts t
  funext y
  show V c main_arg9 (((cfg1.win 4).blk t).view.emb y) = V c main_arg9 y
  refine congrArg _ (funext fun a => Fin.ext ?_)
  match a with
  | ⟨0, _⟩ => show win1_4.index t (0 : Fin 2) * 256 + 1 * (y 0).val = (y 0).val; rw [e40]; omega
  | ⟨1, _⟩ => show win1_4.index t (1 : Fin 2) * 256 + 1 * (y 1).val = (y 1).val; rw [e41]; omega

/-- The second bias row's block is the whole array at every point. -/
theorem node_blk5 (c : Dev nD) (t : Fin cfg1.N) : (iblk1 V c 5 t : Vec Ideal S1x256 .f32) = (V c main_v17 : Vec Ideal S1x256 .f32) := by
  obtain ⟨-, -, -, -, -, -, -, -, -, -, e50, e51, -⟩ := node_index_facts t
  funext y
  show V c main_v17 (((cfg1.win 5).blk t).view.emb y) = V c main_v17 y
  refine congrArg _ (funext fun a => Fin.ext ?_)
  match a with
  | ⟨0, _⟩ => show win1_5.index t (0 : Fin 2) * 1 + 1 * (y 0).val = (y 0).val; rw [e50]; omega
  | ⟨1, _⟩ => show win1_5.index t (1 : Fin 2) * 256 + 1 * (y 1).val = (y 1).val; rw [e51]; omega

/-- The embeddings of all the nodes, from the arrays as the region finds them. -/
abbrev nodeArray (c : Dev nD) : Vec Ideal S40000x256 .f32 :=
  Cert.Spec.nodeEmb (V c main_arg0 : Vec Ideal S40000x128 .f32) (V c main_v15 : Vec Ideal S40000x128 .f32)
    (V c main_arg7 : Vec Ideal S128x256 .f32) (V c main_v16 : Vec Ideal S1x256 .f32)
    (V c main_arg9 : Vec Ideal S256x256 .f32) (V c main_v17 : Vec Ideal S1x256 .f32)

/-- What point t writes back is block t of the embeddings of all the nodes. -/
theorem node_flushed (c : Dev nD) (t : Fin cfg1.N) :
    (dat1 V c).flushed 6 t = ((cfg1.win 6).blk t).view.read (Elt Ideal) (nodeArray V c) := by
  show (cfg1.win 6).cut (grid1.coords t) ((dat1 V c).after 6 t) = _
  rw [after1_6]
  unfold out1_6
  rw [View.canon_unit_zero zero_offsets']
  simp only [View.ld_unit_zero (S := S8000x128) zero_offsets', View.ld_unit_zero (S := S128x256) zero_offsets',
    View.ld_unit_zero (S := S1x256) zero_offsets', View.ld_unit_zero (S := S256x256) zero_offsets']
  rw [node_payload, node_blk2 V c t, node_blk3 V c t, node_blk4 V c t, node_blk5 V c t]
  obtain ⟨-, -, -, -, -, -, -, -, -, -, -, -, e60, e61⟩ := node_index_facts t
  have ht := node_point_lt t
  funext j
  obtain ⟨p, q, rfl⟩ : ∃ (p : Fin 8000) (q : Fin 256), j = ix2 p q := ⟨j 0, j 1, eq_ix2 j⟩
  have hp := p.isLt
  have hemb : ((cfg1.win 6).blk t).view.emb (ix2 p q) = (ix2 (⟨8000 * t.val + p.val, by omega⟩ : Fin 40000) q : S40000x256.Idx) := by
    funext a; apply Fin.ext
    match a with
    | ⟨0, _⟩ => show win1_6.index t (0 : Fin 2) * 8000 + 1 * p.val = 8000 * t.val + p.val; rw [e60]; omega
    | ⟨1, _⟩ => show win1_6.index t (1 : Fin 2) * 256 + 1 * q.val = q.val; rw [e61]; omega
  show Cert.Spec.nodeEmb (iblk1 V c 0 t : Vec Ideal S8000x128 .f32) (iblk1 V c 1 t : Vec Ideal S8000x128 .f32) _ _ _ _ (ix2 p q)
    = nodeArray V c (((cfg1.win 6).blk t).view.emb (ix2 p q))
  rw [hemb]
  exact Cert.Spec.nodeEmb_rows _ _ _ _ _ _ _ _ p ⟨8000 * t.val + p.val, by omega⟩ q
    (fun c' => node_blk0 V c t p c' _ rfl) (fun c' => node_blk1 V c t p c' _ rfl)

/-- An index of the embedding array is in point t's block iff each coordinate is in the block's range on its axis. -/
theorem node_mem_blk (t : Fin cfg1.N) (i : S40000x256.Idx) :
    i ∈ ((cfg1.win 6).blk t).view.set ↔ ∀ a : Fin 2, win1_6.index t a * S8000x256.size a ≤ (i a).val ∧ (i a).val < win1_6.index t a * S8000x256.size a + S8000x256.size a := by
  show i ∈ ((View.whole main_v18).slice (win1_6.rect t)).set ↔ _
  rw [View.set_slice_whole, Rect.mem_set_unit]
  exact Iff.rfl

/-- The embedding array after the region: the embeddings of all the nodes. -/
theorem node_final (c : Dev nD) : (dat1 V c).arrAt 6 cfg1.N = nodeArray V c :=
  (dat1 V c).arrAt_eq_of_cover 6 (nodeArray V c) (fun t _ => node_flushed V c t) fun i => by
    have h0 : (i 0).val < 40000 := (i 0).isLt
    have h1 : (i 1).val < 256 := (i 1).isLt
    refine ⟨⟨(i 0).val / 8000, by rw [show cfg1.N = 5 from N_1]; omega⟩, flush1_6 _, ?_⟩
    rw [node_mem_blk]
    obtain ⟨-, -, -, -, -, -, -, -, -, -, -, -, e60, e61⟩ := node_index_facts ⟨(i 0).val / 8000, by rw [show cfg1.N = 5 from N_1]; omega⟩
    intro a
    match a with
    | ⟨0, _⟩ =>
      show win1_6.index _ (0 : Fin 2) * 8000 ≤ (i 0).val ∧ (i 0).val < win1_6.index _ (0 : Fin 2) * 8000 + 8000
      rw [e60]; show (i 0).val / 8000 * 8000 ≤ (i 0).val ∧ (i 0).val < (i 0).val / 8000 * 8000 + 8000; omega
    | ⟨1, _⟩ =>
      show win1_6.index _ (1 : Fin 2) * 256 ≤ (i 1).val ∧ (i 1).val < win1_6.index _ (1 : Fin 2) * 256 + 256
      rw [e61]; omega

end Cert.KernelIdeal.Hand

end
-- ==== Proof.LossRegion.lean ====
/-
  The third region (the loss kernel, one grid point, every window its whole array), from its block to its array: whatever the
  buffers hold when the region is entered, the one-entry result array ends as the kernel's loss arithmetic of the centre row,
  the positive rows, the negative rows and the threshold row as the region finds them.
-/
import proofs.«149798_j86878598463719_2_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets2 : (![0, 0] : Fin 2 → Nat) = fun _ => 0 := funext fun a => by fin_cases a <;> rfl

/-- The printed index maps at the one grid point: every window is at block (0, 0). -/
theorem loss_index_facts : ∀ t : Fin cfg2.N,
    win2_0.index t (0 : Fin 2) = 0
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0 :=
  (by decide +kernel : ∀ t : Fin grid2.N, _)

/-- Window 0's one block is its whole array. -/
theorem loss_blk0 (c : Dev nD) (t : Fin cfg2.N) : (iblk2 V c 0 t : Vec F S1x256 .f32) = (V c main_v19 : Vec F S1x256 .f32) := by
  obtain ⟨e0, e1, -, -, -, -, -, -, -, -⟩ := loss_index_facts t
  funext y
  show V c main_v19 (((cfg2.win 0).blk t).view.emb y) = V c main_v19 y
  refine congrArg _ (funext fun a => Fin.ext ?_)
  match a with
  | ⟨0, _⟩ => show win2_0.index t (0 : Fin 2) * 1 + 1 * (y 0).val = (y 0).val; rw [e0]; omega
  | ⟨1, _⟩ => show win2_0.index t (1 : Fin 2) * 256 + 1 * (y 1).val = (y 1).val; rw [e1]; omega

/-- Window 1's one block is its whole array. -/
theorem loss_blk1 (c : Dev nD) (t : Fin cfg2.N) : (iblk2 V c 1 t : Vec F S2048x256 .f32) = (V c main_v26 : Vec F S2048x256 .f32) := by
  obtain ⟨-, -, e0, e1, -, -, -, -, -, -⟩ := loss_index_facts t
  funext y
  show V c main_v26 (((cfg2.win 1).blk t).view.emb y) = V c main_v26 y
  refine congrArg _ (funext fun a => Fin.ext ?_)
  match a with
  | ⟨0, _⟩ => show win2_1.index t (0 : Fin 2) * 2048 + 1 * (y 0).val = (y 0).val; rw [e0]; omega
  | ⟨1, _⟩ => show win2_1.index t (1 : Fin 2) * 256 + 1 * (y 1).val = (y 1).val; rw [e1]; omega

/-- Window 2's one block is its whole array. -/
theorem loss_blk2 (c : Dev nD) (t : Fin cfg2.N) : (iblk2 V c 2 t : Vec F S2048x256 .f32) = (V c main_v33 : Vec F S2048x256 .f32) := by
  obtain ⟨-, -, -, -, e0, e1, -, -, -, -⟩ := loss_index_facts t
  funext y
  show V c main_v33 (((cfg2.win 2).blk t).view.emb y) = V c main_v33 y
  refine congrArg _ (funext fun a => Fin.ext ?_)
  match a with
  | ⟨0, _⟩ => show win2_2.index t (0 : Fin 2) * 2048 + 1 * (y 0).val = (y 0).val; rw [e0]; omega
  | ⟨1, _⟩ => show win2_2.index t (1 : Fin 2) * 256 + 1 * (y 1).val = (y 1).val; rw [e1]; omega

/-- Window 3's one block is its whole array. -/
theorem loss_blk3 (c : Dev nD) (t : Fin cfg2.N) : (iblk2 V c 3 t : Vec F S1x256 .f32) = (V c main_arg11 : Vec F S1x256 .f32) := by
  obtain ⟨-, -, -, -, -, -, e0, e1, -, -⟩ := loss_index_facts t
  funext y
  show V c main_arg11 (((cfg2.win 3).blk t).view.emb y) = V c main_arg11 y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 256 + 1 * (y 1).val = (y 1).val; rw [e1]; omega

/-- The kernel's loss arithmetic of the four arrays as the region finds them. -/
abbrev lossArray (c : Dev nD) : Vec F S1x1 .f32 :=
  k2_pay1 (k2_pay2 (V c main_v19 : Vec F S1x256 .f32)) (k2_pay3 (V c main_v33 : Vec F S2048x256 .f32))
    (k2_pay4 (V c main_arg11 : Vec F S1x256 .f32)) (k2_pay5 (V c main_v19 : Vec F S1x256 .f32) (V c main_v26 : Vec F S2048x256 .f32))

/-- What the one point writes back is the whole result. -/
theorem loss_flushed (c : Dev nD) (t : Fin cfg2.N) :
    (dat2 V c).flushed 4 t = ((cfg2.win 4).blk t).view.read (Elt F) (lossArray V c) := by
  show (cfg2.win 4).cut (grid2.coords t) ((dat2 V c).after 4 t) = _
  rw [after2_4]
  unfold out2_4
  rw [View.canon_unit_zero zero_offsets2]
  simp only [View.ld_unit_zero (S := S1x256) zero_offsets2, View.ld_unit_zero (S := S2048x256) zero_offsets2]
  rw [loss_blk0 V c t, loss_blk1 V c t, loss_blk2 V c t, loss_blk3 V c t]
  obtain ⟨-, -, -, -, -, -, -, -, e0, e1⟩ := loss_index_facts t
  funext j
  show lossArray V c j = lossArray V c (((cfg2.win 4).blk t).view.emb j)
  refine congrArg _ (funext fun a => Fin.ext ?_)
  match a with
  | ⟨0, _⟩ => show (j 0).val = win2_4.index t (0 : Fin 2) * 1 + 1 * (j 0).val; rw [e0]; omega
  | ⟨1, _⟩ => show (j 1).val = win2_4.index t (1 : Fin 2) * 1 + 1 * (j 1).val; rw [e1]; omega

theorem loss_mem_blk (t : Fin cfg2.N) (i : S1x1.Idx) :
    i ∈ ((cfg2.win 4).blk t).view.set ↔ ∀ a : Fin 2, win2_4.index t a * S1x1.size a ≤ (i a).val ∧ (i a).val < win2_4.index t a * S1x1.size a + S1x1.size a := by
  show i ∈ ((View.whole main_v34).slice (win2_4.rect t)).set ↔ _
  rw [View.set_slice_whole, Rect.mem_set_unit]
  exact Iff.rfl

/-- The result array after the region. -/
theorem loss_final (c : Dev nD) : (dat2 V c).arrAt 4 cfg2.N = lossArray V c :=
  (dat2 V c).arrAt_eq_of_cover 4 (lossArray V c) (fun t _ => loss_flushed V c t) fun i => by
    have h0 : (i 0).val < 1 := (i 0).isLt
    have h1 : (i 1).val < 1 := (i 1).isLt
    refine ⟨t2_0, flush2_4 _, ?_⟩
    rw [loss_mem_blk]
    obtain ⟨-, -, -, -, -, -, -, -, e0, e1⟩ := loss_index_facts t2_0
    intro a
    match a with
    | ⟨0, _⟩ =>
      show win2_4.index _ (0 : Fin 2) * 1 ≤ (i 0).val ∧ (i 0).val < win2_4.index _ (0 : Fin 2) * 1 + 1
      rw [e0]; omega
    | ⟨1, _⟩ =>
      show win2_4.index _ (1 : Fin 2) * 1 ≤ (i 1).val ∧ (i 1).val < win2_4.index _ (1 : Fin 2) * 1 + 1
      rw [e1]; omega

end Cert.KernelIdeal.Hand

end
-- ==== Proof.RefStages.lean ====
/-
  The reference's two dense stages as the whole-array functions: its message array (the gathered rows plus the projected edge
  attributes plus the bias, rectified) is the message function of the gathered rows, and its embedding array is the embedding
  function of the node features and of its aggregated messages. The host's matrix products are sums over the contracted
  coordinate, its two-step broadcasts of a bias vector lay the vector along every row, and the order of the operations is the
  specification's: no law of arithmetic is used.
-/
import proofs.«149798_j86878598463719_2_alg».proof.Proof.Gen.ReferenceIdeal.Read
import proofs.«149798_j86878598463719_2_alg».proof.Proof.Spec
import proofs.«149798_j86878598463719_2_alg».proof.Proof.Gen.KernelIdeal

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.ValueIdx

variable (x0 : (⟨S40000x128, .f32⟩ : BufTy).Contents (Elt Ideal)) (x1 : (⟨S2x640000, .i32⟩ : BufTy).Contents (Elt Ideal))
  (x2 : (⟨S640000x64, .f32⟩ : BufTy).Contents (Elt Ideal)) (x5 : (⟨S64x128, .f32⟩ : BufTy).Contents (Elt Ideal))
  (x6 : (⟨S128, .f32⟩ : BufTy).Contents (Elt Ideal)) (x7 : (⟨S128x256, .f32⟩ : BufTy).Contents (Elt Ideal))
  (x8 : (⟨S256, .f32⟩ : BufTy).Contents (Elt Ideal)) (x9 : (⟨S256x256, .f32⟩ : BufTy).Contents (Elt Ideal))
  (x10 : (⟨S256, .f32⟩ : BufTy).Contents (Elt Ideal))

/-- The reference's messages are the message function of its gathered rows. -/
theorem msg_eq : val_main_v16 (F := Ideal) x0 x1 x2 x5 x6
    = Cert.Spec.edgeMsg (val_main_v14 (F := Ideal) x0 x1 : FVec Ideal S640000x128 .f32) (x2 : FVec Ideal S640000x64 .f32)
        (x5 : FVec Ideal S64x128 .f32) (shapeCast S1x128 (x6 : FVec Ideal S128 .f32) Cert.KernelIdeal.Facts₀.shapeCasts_S128_S1x128) := by
  funext i
  obtain ⟨a, b, rfl⟩ : ∃ (a : Fin 640000) (b : Fin 128), i = ix2 a b := ⟨i 0, i 1, eq_ix2 i⟩
  rw [Cert.Spec.edgeMsg_apply]
  unfold val_main_v16 val_main_v15 val_main_v7 val_main_v6 val_main_v5 val_main_v4 val_main_call0_v0 val_main_call0_cst
  rw [maximumf_apply, addf_apply, addf_apply, Cert.Lib.MatDot.broadcastInDim_vec_rows_apply, broadcastInDim_scalar_apply,
    shapeCast_a_1a_apply]
  exact congrArg (fun z => max (val_main_v14 (F := Ideal) x0 x1 (ix2 a b) + (z + x6 (ix1 b))) Cert.Spec.zeroW)
    (Cert.Lib.MatDot.dotGeneral_apply dot_S640000x64_S64x128_S640000x128_1_0_0_1_n_n.wf none x2 x5 a b)

/-- The reference's embeddings are the embedding function of the node features and of its aggregated messages. -/
theorem emb_eq : val_main_v31 (F := Ideal) x0 x1 x2 x5 x6 x7 x8 x9 x10
    = Cert.Spec.nodeEmb (x0 : FVec Ideal S40000x128 .f32) (val_main_v19 (F := Ideal) x0 x1 x2 x5 x6 : FVec Ideal S40000x128 .f32)
        (x7 : FVec Ideal S128x256 .f32) (shapeCast S1x256 (x8 : FVec Ideal S256 .f32) Cert.KernelIdeal.Facts₀.shapeCasts_S256_S1x256)
        (x9 : FVec Ideal S256x256 .f32) (shapeCast S1x256 (x10 : FVec Ideal S256 .f32) Cert.KernelIdeal.Facts₀.shapeCasts_S256_S1x256) := by
  have h22 : val_main_v22 (F := Ideal) x0 x1 x2 x5 x6 = Cert.Spec.selfPlus (x0 : FVec Ideal S40000x128 .f32) (val_main_v19 (F := Ideal) x0 x1 x2 x5 x6) := by
    funext i
    unfold val_main_v22 val_main_v21 val_main_v20 val_main_cst_1
    rw [addf_apply, mulf_apply, broadcastInDim_scalar_apply]
    rfl
  have e1 : ∀ Y : FVec Ideal S40000x128 .f32, Host.dotGeneral dot_S40000x128_S128x256_S40000x256_1_0_0_1_n_n none Y x7 = Cert.Dense.matProd Y (x7 : FVec Ideal S128x256 .f32) :=
    fun Y => Cert.Dense.dotGeneral_eq dot_S40000x128_S128x256_S40000x256_1_0_0_1_n_n.wf none Y x7
  have e2 : ∀ Y : FVec Ideal S40000x256 .f32, Host.dotGeneral dot_S40000x256_S256x256_S40000x256_1_0_0_1_n_n none Y x9 = Cert.Dense.matProd Y (x9 : FVec Ideal S256x256 .f32) :=
    fun Y => Cert.Dense.dotGeneral_eq dot_S40000x256_S256x256_S40000x256_1_0_0_1_n_n.wf none Y x9
  unfold Cert.Spec.nodeEmb
  unfold val_main_v31 val_main_v30 val_main_v29 val_main_v28 val_main_v27 val_main_v26 val_main_v25 val_main_v24 val_main_v23
    val_main_call1_v0 val_main_call1_cst
  rw [h22, e1, e2]
  rw [Cert.Dense.relu_add_rows_eq bcast_S256_S1x256_1 bcast_S1x256_S40000x256_0_1 Cert.KernelIdeal.Facts₀.shapeCasts_S256_S1x256 bcast_S_S40000x256,
    Cert.Dense.add_rows_eq bcast_S256_S1x256_1 bcast_S1x256_S40000x256_0_1 Cert.KernelIdeal.Facts₀.shapeCasts_S256_S1x256]

end Cert.ReferenceIdeal.Hand

end
-- ==== Proof.Fold.lean ====
/-
  The buffers' contents at each boundary of the idealized kernel's program, followed through the fold: what each region finds in
  its operands and what the host lines between the regions compute from what the regions leave. The host lines that the two
  programs share (the slices of the edge list, the wrap of negative indices, the gathers and the scatter-add) are stated by
  the reference's own stage functions: the two programs apply the same operations to the same arguments there. The message
  array and the embedding array the regions leave are the reference's stages too: each is the same whole-array function of the
  same operands.
-/
import proofs.«149798_j86878598463719_2_alg».proof.Proof.EdgeRegion
import proofs.«149798_j86878598463719_2_alg».proof.Proof.NodeRegion
import proofs.«149798_j86878598463719_2_alg».proof.Proof.LossRegion
import proofs.«149798_j86878598463719_2_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## The arguments are not written: each is found as launched wherever it is read -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl
theorem W2_arg0 (c : Dev nD) : W2 m ρ c (Proc.devRef .tc main_arg0) = m ((c : Thread nD τ).loc main_arg0) :=
  (W2_of_ne m ρ c main_arg0 (by decide)).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W3_arg0 (c : Dev nD) : W3 m ρ c (Proc.devRef .tc main_arg0) = m ((c : Thread nD τ).loc main_arg0) := by
  show StableHlo.after hostOps1 (W2 m ρ c) (Proc.devRef .tc main_arg0) = _
  after_results
  exact W2_arg0 m ρ c
theorem W3_arg3 (c : Dev nD) : W3 m ρ c (Proc.devRef .tc main_arg3) = m ((c : Thread nD τ).loc main_arg3) := by
  show StableHlo.after hostOps1 (W2 m ρ c) (Proc.devRef .tc main_arg3) = _
  after_results
  exact W2_arg3 m ρ c
theorem W3_arg4 (c : Dev nD) : W3 m ρ c (Proc.devRef .tc main_arg4) = m ((c : Thread nD τ).loc main_arg4) := by
  show StableHlo.after hostOps1 (W2 m ρ c) (Proc.devRef .tc main_arg4) = _
  after_results
  exact W2_arg4 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W5_arg11 (c : Dev nD) : W5 m ρ c (Proc.devRef .tc main_arg11) = m ((c : Thread nD τ).loc main_arg11) := by
  show StableHlo.after hostOps2 (W4 m ρ c) (Proc.devRef .tc main_arg11) = _
  after_results
  exact W4_arg11 m ρ c

/-! ## The first region's operands and result -/

theorem W1_v10 (c : Dev nD) : W1 m ρ c (Proc.devRef .tc main_v10) = val_main_v14 (F := Ideal) (m ((c : Thread nD τ).loc main_arg0)) (m ((c : Thread nD τ).loc main_arg1)) := by
  show StableHlo.after hostOps0 (W0 m ρ c) (Proc.devRef .tc main_v10) = _
  after_results
  rfl

theorem W1_v11 (c : Dev nD) : W1 m ρ c (Proc.devRef .tc main_v11) = shapeCast S1x128 (m ((c : Thread nD τ).loc main_arg6)) shapeCasts_S128_S1x128 := by
  show StableHlo.after hostOps0 (W0 m ρ c) (Proc.devRef .tc main_v11) = _
  after_results
  rfl

theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  rfl

/-- The message array the first region leaves is the reference's message stage. -/
theorem W2_v12 (c : Dev nD) : W2 m ρ c (Proc.devRef .tc main_v12) = val_main_v16 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (W2_arr m ρ c 4).trans ((edge_final (V1 m ρ) c).trans ?_)
  rw [Cert.ReferenceIdeal.Hand.msg_eq]
  show Cert.Spec.edgeMsg (W1 m ρ c (Proc.devRef .tc main_v10)) (W1 m ρ c (Proc.devRef .tc main_arg2)) (W1 m ρ c (Proc.devRef .tc main_arg5)) (W1 m ρ c (Proc.devRef .tc main_v11)) = _
  rw [W1_v10, W1_v11, W1_arg2, W1_arg5]

/-! ## The second region's operands and result -/

/-- The aggregated messages: the same scatter-add of the same messages at the same destinations. -/
theorem W3_v15 (c : Dev nD) : W3 m ρ c (Proc.devRef .tc main_v15) = val_main_v19 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  show StableHlo.after hostOps1 (W2 m ρ c) (Proc.devRef .tc main_v15) = _
  after_results
  rw [W2_v12, (W2_of_ne m ρ c main_v3 (by decide)).trans (W1_v3 m ρ c)]
  rfl

theorem W3_v16 (c : Dev nD) : W3 m ρ c (Proc.devRef .tc main_v16) = shapeCast S1x256 (m ((c : Thread nD τ).loc main_arg8)) shapeCasts_S256_S1x256 := by
  show StableHlo.after hostOps1 (W2 m ρ c) (Proc.devRef .tc main_v16) = _
  after_results
  rw [W2_arg8]
  rfl

theorem W3_v17 (c : Dev nD) : W3 m ρ c (Proc.devRef .tc main_v17) = shapeCast S1x256 (m ((c : Thread nD τ).loc main_arg10)) shapeCasts_S256_S1x256 := by
  show StableHlo.after hostOps1 (W2 m ρ c) (Proc.devRef .tc main_v17) = _
  after_results
  rw [W2_arg10]
  rfl

/-- The embedding array the second region leaves is the reference's embedding stage. -/
theorem W4_v18 (c : Dev nD) : W4 m ρ c (Proc.devRef .tc main_v18) = val_main_v31 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((node_final (V3 m ρ) c).trans ?_)
  rw [Cert.ReferenceIdeal.Hand.emb_eq]
  show Cert.Spec.nodeEmb (W3 m ρ c (Proc.devRef .tc main_arg0)) (W3 m ρ c (Proc.devRef .tc main_v15)) (W3 m ρ c (Proc.devRef .tc main_arg7))
    (W3 m ρ c (Proc.devRef .tc main_v16)) (W3 m ρ c (Proc.devRef .tc main_arg9)) (W3 m ρ c (Proc.devRef .tc main_v17)) = _
  rw [W3_arg0, W3_v15, W3_arg7, W3_v16, W3_arg9, W3_v17]

/-! ## The third region's operands and result, and the program's result -/

theorem W5_v19 (c : Dev nD) : W5 m ρ c (Proc.devRef .tc main_v19) = val_main_v32 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v19) = _
  after_results
  rw [W4_v18]
  rfl

theorem W5_v26 (c : Dev nD) : W5 m ρ c (Proc.devRef .tc main_v26)
    = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v26) = _
  after_results
  rw [W4_v18, W4_arg3]
  rfl

set_option maxHeartbeats 2000000 in
theorem W5_v33 (c : Dev nD) : W5 m ρ c (Proc.devRef .tc main_v33)
    = val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v33) = _
  after_results
  rw [W4_v18, W4_arg4]
  rfl

/-- The program's result: the kernel's loss arithmetic, reshaped to a scalar, of the reference's centre row, positive rows and
    negative rows and of the threshold row. -/
theorem W7_v35 (c : Dev nD) : W7 m ρ c (Proc.devRef .tc main_v35)
    = shapeCast S_ (k2_pay1 (F := Ideal)
        (k2_pay2 (val_main_v32 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))))
        (k2_pay3 (val_main_v57 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))))
        (k2_pay4 (m ((c : Thread nD τ).loc main_arg11)))
        (k2_pay5 (val_main_v32 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
          (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))))
      shapeCasts_S1x1_S_ := by
  show StableHlo.after hostOps3 (W6 m ρ c) (Proc.devRef .tc main_v35) = _
  after_results
  rw [(W6_arr m ρ c 4).trans (loss_final (V5 m ρ) c)]
  show shapeCast S_ (k2_pay1 (F := Ideal) (k2_pay2 (W5 m ρ c (Proc.devRef .tc main_v19))) (k2_pay3 (W5 m ρ c (Proc.devRef .tc main_v33)))
      (k2_pay4 (W5 m ρ c (Proc.devRef .tc main_arg11))) (k2_pay5 (W5 m ρ c (Proc.devRef .tc main_v19)) (W5 m ρ c (Proc.devRef .tc main_v26)))) shapeCasts_S1x1_S_ = _
  rw [W5_v19, W5_v33, W5_arg11, W5_v26]

end Cert.KernelIdeal.Hand

end
-- ==== Proof.LossTail.lean ====
/-
  The tail of the certificate: the loss kernel's arithmetic and the reference's last stages are one function
  of four blocks of extended reals. Both programs divide each row by its Euclidean norm (kept above a small
  constant), take inner products of the normalized centre with the normalized positive rows, negative rows and
  threshold, average the first two over the 2048 rows, and return
  -log σ(posMean - thr) - log σ(thr - negMean), each σ kept above the same constant. They differ in layout only
  (a one by 256 block against a 256 vector, a lane sum then a column sum against sums over two axes), in the
  reference writing σ(x) as 1 / (1 + exp(-x)), in a division by one, an addition of zero, and the order of the
  two arguments of a maximum: all equalities on every extended real.
-/
import proofs.«149798_j86878598463719_2_alg».proof.Proof.Gen.KernelIdeal.Skeleton
import proofs.«149798_j86878598463719_2_alg».proof.Proof.Gen.ReferenceIdeal.Read
import Idealize.ShloMosaic.Lib.ValueIdx
import Idealize.ShloMosaic.Lib.ValueLayout
import Idealize.ShloMosaic.Lib.IdealHost
import Idealize.ShloMosaic.PureOps.Ideal.Laws
import Idealize.ShloMosaic.Lib.Pipeline.Value

noncomputable section

namespace Cert.LossTail

open Idealize.ShloMosaic Idealize.ShloMosaic.ValueIdx Idealize.SL.Sem
open Cert.ReferenceIdeal Cert.ReferenceIdeal.Read
open scoped BigOperators

/-! ## The loss as a function of four blocks of extended reals

Write c for the centre row, P and N for the positive and negative rows, t for the threshold row. Each
row is divided by its Euclidean norm kept above a small constant; a score is the inner product of two
normalized rows; the positive and negative scores are averaged over the rows; the loss is
-log σ(posMean - thr) - log σ(thr - negMean) with each σ kept above the same constant. -/

/-- The small constant that the norms and the logistic values are kept above. -/
def eps : EReal := Ideal.ofBits .f32 0x2B8CBCCC#32

/-- The number of rows, as the constant both programs divide by. -/
def rows : EReal := Ideal.ofBits .f32 0x45000000#32

/-- The Euclidean norm of a row, kept above the constant. -/
def nrm (f : Fin 256 → EReal) : EReal := max (Ideal.sqrt (∑ h, f h * f h)) eps

/-- A row divided by its norm. -/
def unit (f : Fin 256 → EReal) (h : Fin 256) : EReal := Ideal.div (f h) (nrm f)

/-- The inner product of two normalized rows. -/
def score (c p : Fin 256 → EReal) : EReal := ∑ h, unit c h * unit p h

/-- The mean over the rows of their scores against the centre. -/
def meanScore (c : Fin 256 → EReal) (P : Fin 2048 → Fin 256 → EReal) : EReal :=
  Ideal.div (∑ i, score c (P i)) rows

/-- The two logistic terms of the loss. -/
def tail (pos neg thr : EReal) : EReal :=
  -(Ideal.log (max (Ideal.logistic (pos - thr)) eps)) - Ideal.log (max (Ideal.logistic (thr - neg)) eps)

/-- The loss. -/
def lossOf (c : Fin 256 → EReal) (P N : Fin 2048 → Fin 256 → EReal) (t : Fin 256 → EReal) : EReal :=
  tail (meanScore c P) (meanScore c N) (score c t)

/-! ## Scalar facts on the extended reals -/

/-- Division by one changes nothing, at every extended real. -/
theorem div_one' (x : EReal) : Ideal.div x 1 = x := by
  unfold Ideal.div
  rw [if_neg one_ne_zero, inv_one, mul_one]

/-- The kernel's last steps, with its constants as words, are the two logistic terms. -/
theorem tail_kernel (a b c : EReal) :
    (Ideal.ofBits .f32 0x00000000#32
        - Ideal.log (max (Ideal.logistic (Ideal.div (Ideal.div a (Ideal.ofBits .f32 0x45000000#32) - c)
            (Ideal.ofBits .f32 0x3F800000#32))) (Ideal.ofBits .f32 0x2B8CBCCC#32)))
      - Ideal.log (max (Ideal.logistic (Ideal.div (c - Ideal.div b (Ideal.ofBits .f32 0x45000000#32))
            (Ideal.ofBits .f32 0x3F800000#32))) (Ideal.ofBits .f32 0x2B8CBCCC#32))
      = tail (Ideal.div a rows) (Ideal.div b rows) c := by
  rw [Ideal.ofBits_zero_f32, Ideal.ofBits_one_f32, div_one', div_one', zero_sub]
  rfl

/-! ## The kernel's arithmetic read at an index -/

/-- In a block of rows of 256 lanes, lane k over row i is the index (i, k). -/
theorem lift_row {m : ℕ} (red : Shape.Reduces (⟨2, ![m, 256]⟩ : Shape) [1] ⟨1, ![m]⟩) (i : Fin m) (k : Fin 256) :
    red.lift (ix1 i) k = ix2 i k :=
  funext fun a => Fin.ext (by match a with | ⟨0, _⟩ => rfl | ⟨1, _⟩ => rfl)

/-- The sum over the lanes of a block of rows, at row i. -/
theorem rowSum_apply {m : ℕ} (X : FVec Ideal ⟨2, ![m, 256]⟩ .f32)
    (red : Shape.Reduces (⟨2, ![m, 256]⟩ : Shape) [1] ⟨1, ![m]⟩)
    (hφ : FKind.Formats .f32) (hacc : (0x00000000#32 : BitVec 32) = FKind.add.neutral .f32 hφ) (i : Fin m) :
    multiReduction .add [1] ⟨1, ![m]⟩ X 0x00000000#32 red hφ hacc (ix1 i) = ∑ k : Fin 256, X (ix2 i k) := by
  rw [Ideal.multiReduction_add_single]
  exact Finset.sum_congr rfl fun k _ => congrArg X (lift_row red i k)

/-- The sum over the lanes of the squares of a block's rows, its square root kept above the constant,
    spread back over the lanes: at row i it is the norm of row i. -/
theorem rowNorm_apply {m : ℕ} (X : FVec Ideal ⟨2, ![m, 256]⟩ .f32)
    (red : Shape.Reduces (⟨2, ![m, 256]⟩ : Shape) [1] ⟨1, ![m]⟩)
    (hφ : FKind.Formats .f32) (hacc : (0x00000000#32 : BitVec 32) = FKind.add.neutral .f32 hφ)
    (sc : (⟨1, ![m]⟩ : Shape).ShapeCasts ⟨2, ![m, 1]⟩)
    (bc : (⟨2, ![m, 1]⟩ : Shape).Broadcasts ⟨2, ![m, 256]⟩)
    (i : Fin m) (h : Fin 256) :
    broadcastTo ⟨2, ![m, 256]⟩
      (maximumf (sqrt (shapeCast ⟨2, ![m, 1]⟩ (multiReduction .add [1] ⟨1, ![m]⟩ (mulf X X) 0x00000000#32 red hφ hacc) sc))
        (broadcast ⟨2, ![m, 1]⟩ (Scalar.ofBits .f32 0x2B8CBCCC#32))) bc (ix2 i h)
      = nrm (fun k => X (ix2 i k)) := by
  refine (broadcastTo_apply _ bc (ix2 i h) (ix2 i (0 : Fin 1)) (fun a => ?_)).trans ?_
  · match a with
    | ⟨0, _⟩ =>
      show i.val = if m = 1 then 0 else i.val
      split
      · have := i.isLt; omega
      · rfl
    | ⟨1, _⟩ =>
      show 0 = if (1 : ℕ) = 1 then 0 else h.val
      rw [if_pos rfl]
  · show max (Ideal.sqrt (shapeCast ⟨2, ![m, 1]⟩ (multiReduction .add [1] ⟨1, ![m]⟩ (mulf X X) 0x00000000#32 red hφ hacc) sc
        (ix2 i (0 : Fin 1)))) (Ideal.ofBits .f32 0x2B8CBCCC#32) = _
    rw [shapeCast_apply _ sc (ix2 i (0 : Fin 1)) (ix1 i)
      (by rw [Shape.rowMajor_val_two, Shape.rowMajor_val_one]; show i.val = i.val * 1 + 0; omega)]
    rw [rowSum_apply]
    rfl

/-- The normalized centre at lane h. -/
theorem pay2_apply (C : Vec Ideal S1x256 .f32) (h : Fin 256) :
    Cert.KernelIdeal.Gen.k2_pay2 (F := Ideal) C (ix2 (0 : Fin 1) h) = unit (fun k => C (ix2 (0 : Fin 1) k)) h := by
  unfold Cert.KernelIdeal.Gen.k2_pay2
  simp only [shapeCast_self]
  exact congrArg (Ideal.div (C (ix2 (0 : Fin 1) h))) (rowNorm_apply C _ _ _ _ _ 0 h)

/-- The normalized negatives at row i, lane h. -/
theorem pay3_apply (N : Vec Ideal S2048x256 .f32) (i : Fin 2048) (h : Fin 256) :
    Cert.KernelIdeal.Gen.k2_pay3 (F := Ideal) N (ix2 i h) = unit (fun k => N (ix2 i k)) h := by
  unfold Cert.KernelIdeal.Gen.k2_pay3
  simp only [shapeCast_self]
  exact congrArg (Ideal.div (N (ix2 i h))) (rowNorm_apply N _ _ _ _ _ i h)

/-- The normalized threshold at lane h. -/
theorem pay4_apply (T : Vec Ideal S1x256 .f32) (h : Fin 256) :
    Cert.KernelIdeal.Gen.k2_pay4 (F := Ideal) T (ix2 (0 : Fin 1) h) = unit (fun k => T (ix2 (0 : Fin 1) k)) h := by
  unfold Cert.KernelIdeal.Gen.k2_pay4
  exact congrArg (Ideal.div (T (ix2 (0 : Fin 1) h))) (rowNorm_apply T _ _ _ _ _ 0 h)

/-- The positive scores: at row i, the inner product of the normalized centre and the normalized row. -/
theorem pay5_apply (C : Vec Ideal S1x256 .f32) (P : Vec Ideal S2048x256 .f32) (i : Fin 2048) :
    Cert.KernelIdeal.Gen.k2_pay5 (F := Ideal) C P (ix1 i)
      = score (fun k => C (ix2 (0 : Fin 1) k)) (fun k => P (ix2 i k)) := by
  unfold Cert.KernelIdeal.Gen.k2_pay5
  simp only [shapeCast_self]
  refine (rowSum_apply _ _ _ _ i).trans ?_
  refine Finset.sum_congr rfl fun h _ => ?_
  refine congrArg₂ (· * ·) ?_ ?_
  · exact (broadcastTo_1b_ab_apply _ _ i h).trans (pay2_apply C h)
  · exact congrArg (Ideal.div (P (ix2 i h))) (rowNorm_apply P _ _ _ _ _ i h)

/-- In a column of 2048 rows, row k is the index (k, 0). -/
theorem lift_col (red : Shape.Reduces (⟨2, ![2048, 1]⟩ : Shape) [0] ⟨1, ![1]⟩) (k : Fin 2048) :
    red.lift (ix1 (0 : Fin 1)) k = ix2 k (0 : Fin 1) :=
  funext fun a => Fin.ext (by match a with | ⟨0, _⟩ => rfl | ⟨1, _⟩ => rfl)

/-- The sum down a column of 2048 scores, laid out as a one by one block. -/
theorem colSum_apply (v : FVec Ideal ⟨1, ![2048]⟩ .f32)
    (sc1 : (⟨1, ![2048]⟩ : Shape).ShapeCasts ⟨2, ![2048, 1]⟩)
    (red : Shape.Reduces (⟨2, ![2048, 1]⟩ : Shape) [0] ⟨1, ![1]⟩)
    (hφ : FKind.Formats .f32) (hacc : (0x00000000#32 : BitVec 32) = FKind.add.neutral .f32 hφ)
    (sc2 : (⟨1, ![1]⟩ : Shape).ShapeCasts ⟨2, ![1, 1]⟩) :
    shapeCast ⟨2, ![1, 1]⟩ (multiReduction .add [0] ⟨1, ![1]⟩ (shapeCast ⟨2, ![2048, 1]⟩ v sc1) 0x00000000#32 red hφ hacc) sc2
        (ix2 (0 : Fin 1) (0 : Fin 1))
      = ∑ i : Fin 2048, v (ix1 i) := by
  rw [shapeCast_a_1a_apply, Ideal.multiReduction_add_single]
  refine Finset.sum_congr rfl fun k _ => ?_
  rw [lift_col red k]
  exact shapeCast_apply v sc1 (ix2 k (0 : Fin 1)) (ix1 k)
    (by rw [Shape.rowMajor_val_two, Shape.rowMajor_val_one]; show k.val = k.val * 1 + 0; omega)

/-- The loss kernel's last value, from the normalized centre, the normalized negatives, the normalized
    threshold and the positive scores. -/
theorem pay1_apply (v9 : FVec Ideal S1x256 .f32) (v29 : FVec Ideal S2048x256 .f32) (v38 : FVec Ideal S1x256 .f32)
    (v41 : FVec Ideal S2048 .f32) :
    Cert.KernelIdeal.Gen.k2_pay1 (F := Ideal) v9 v29 v38 v41 (ix2 (0 : Fin 1) (0 : Fin 1))
      = tail (Ideal.div (∑ i : Fin 2048, v41 (ix1 i)) rows)
          (Ideal.div (∑ i : Fin 2048, ∑ h : Fin 256, v9 (ix2 (0 : Fin 1) h) * v29 (ix2 i h)) rows)
          (∑ h : Fin 256, v9 (ix2 (0 : Fin 1) h) * v38 (ix2 (0 : Fin 1) h)) := by
  unfold Cert.KernelIdeal.Gen.k2_pay1
  show (Ideal.ofBits .f32 0x00000000#32
        - Ideal.log (max (Ideal.logistic (Ideal.div
            (Ideal.div (shapeCast ⟨2, ![1, 1]⟩ (multiReduction .add [0] ⟨1, ![1]⟩ (shapeCast ⟨2, ![2048, 1]⟩ v41 _)
                  0x00000000#32 _ _ _) _ (ix2 (0 : Fin 1) (0 : Fin 1))) (Ideal.ofBits .f32 0x45000000#32)
              - shapeCast ⟨2, ![1, 1]⟩ (multiReduction .add [1] ⟨1, ![1]⟩ (mulf v9 v38) 0x00000000#32 _ _ _) _
                  (ix2 (0 : Fin 1) (0 : Fin 1)))
            (Ideal.ofBits .f32 0x3F800000#32))) (Ideal.ofBits .f32 0x2B8CBCCC#32)))
      - Ideal.log (max (Ideal.logistic (Ideal.div
            (shapeCast ⟨2, ![1, 1]⟩ (multiReduction .add [1] ⟨1, ![1]⟩ (mulf v9 v38) 0x00000000#32 _ _ _) _
                  (ix2 (0 : Fin 1) (0 : Fin 1))
              - Ideal.div (shapeCast ⟨2, ![1, 1]⟩ (multiReduction .add [0] ⟨1, ![1]⟩ (shapeCast ⟨2, ![2048, 1]⟩
                    (multiReduction .add [1] ⟨1, ![2048]⟩ (mulf (broadcastTo ⟨2, ![2048, 256]⟩ v9 _) v29) 0x00000000#32 _ _ _) _)
                  0x00000000#32 _ _ _) _ (ix2 (0 : Fin 1) (0 : Fin 1))) (Ideal.ofBits .f32 0x45000000#32))
            (Ideal.ofBits .f32 0x3F800000#32))) (Ideal.ofBits .f32 0x2B8CBCCC#32)) = _
  refine (tail_kernel _ _ _).trans ?_
  refine congr (congr (congrArg tail (congrArg (fun z => Ideal.div z rows) ?_))
    (congrArg (fun z => Ideal.div z rows) ?_)) ?_
  · exact colSum_apply v41 _ _ _ _ _
  · exact (colSum_apply _ _ _ _ _ _).trans (Finset.sum_congr rfl fun i _ =>
      (rowSum_apply _ _ _ _ i).trans (Finset.sum_congr rfl fun h _ =>
        congrArg (· * v29 (ix2 i h)) (broadcastTo_1b_ab_apply v9 _ i h)))
  · exact (shapeCast_a_1a_apply _ _ 0 0).trans (rowSum_apply (mulf v9 v38) _ _ _ 0)

/-- The kernel's loss, from the centre row, the positive rows, the negative rows and the threshold row. -/
theorem kernel_loss (C T : Vec Ideal S1x256 .f32) (P N : Vec Ideal S2048x256 .f32) :
    Cert.KernelIdeal.Gen.k2_pay1 (F := Ideal) (Cert.KernelIdeal.Gen.k2_pay2 C) (Cert.KernelIdeal.Gen.k2_pay3 N)
        (Cert.KernelIdeal.Gen.k2_pay4 T) (Cert.KernelIdeal.Gen.k2_pay5 C P) (ix2 (0 : Fin 1) (0 : Fin 1))
      = lossOf (fun k => C (ix2 (0 : Fin 1) k)) (fun i k => P (ix2 i k)) (fun i k => N (ix2 i k))
          (fun k => T (ix2 (0 : Fin 1) k)) := by
  refine (pay1_apply _ _ _ _).trans ?_
  unfold lossOf meanScore
  refine congr (congr (congrArg tail (congrArg (fun z => Ideal.div z rows) ?_))
    (congrArg (fun z => Ideal.div z rows) ?_)) ?_
  · exact Finset.sum_congr rfl fun i _ => pay5_apply C P i
  · exact Finset.sum_congr rfl fun i _ => Finset.sum_congr rfl fun h _ =>
      congrArg₂ (· * ·) (pay2_apply C h) (pay3_apply N i h)
  · exact Finset.sum_congr rfl fun h _ => congrArg₂ (· * ·) (pay2_apply C h) (pay4_apply T h)

/-- The same, with the one by one block read as a scalar. -/
theorem kernel_loss_scalar (C T : Vec Ideal S1x256 .f32) (P N : Vec Ideal S2048x256 .f32)
    (sc : (⟨2, ![1, 1]⟩ : Shape).ShapeCasts ⟨0, ![]⟩) (j : (⟨0, ![]⟩ : Shape).Idx) :
    shapeCast ⟨0, ![]⟩ (Cert.KernelIdeal.Gen.k2_pay1 (F := Ideal) (Cert.KernelIdeal.Gen.k2_pay2 C)
        (Cert.KernelIdeal.Gen.k2_pay3 N) (Cert.KernelIdeal.Gen.k2_pay4 T) (Cert.KernelIdeal.Gen.k2_pay5 C P)) sc j
      = lossOf (fun k => C (ix2 (0 : Fin 1) k)) (fun i k => P (ix2 i k)) (fun i k => N (ix2 i k))
          (fun k => T (ix2 (0 : Fin 1) k)) := by
  refine (shapeCast_apply _ sc j (ix2 (0 : Fin 1) (0 : Fin 1)) ?_).trans (kernel_loss C T P N)
  rw [Shape.rowMajor_val_two]
  have h := (Shape.rowMajor (⟨0, ![]⟩ : Shape) j).isLt
  have h1 : (⟨0, ![]⟩ : Shape).numel = 1 := rfl
  show 0 * 1 + 0 = _
  omega

/-! ## The reference's stages read at an index -/

/-- The indices of a rank-one shape are its one coordinate's values … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Reference

variable (x0 : (⟨S40000x128, .f32⟩ : BufTy).Contents (Elt Ideal)) (x1 : (⟨S2x640000, .i32⟩ : BufTy).Contents (Elt Ideal)) (x2 : (⟨S640000x64, .f32⟩ : BufTy).Contents (Elt Ideal)) (x3 x4 : (⟨S2048, .i32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S1x256, .f32⟩ : BufTy).Contents (Elt Ideal))

local notation "Cr" => val_main_v32 (F := Ideal) x0 x1 x2 x5 x6 x7 x8 x9 x10
local notation "Pr" => val_main_v45 (F := Ideal) x0 x1 x2 x3 x5 x6 x7 x8 x9 x10
local notation "Nr" => val_main_v57 (F := Ideal) x0 x1 x2 x4 x5 x6 x7 x8 x9 x10

/-- The reference's normalized centre at lane a. -/
theorem ref_centre (a : Fin 256) :
    val_main_v38 (F := Ideal) x0 x1 x2 x5 x6 x7 x8 x9 x10 (ix1 a) = unit (fun k => Cr (ix2 (0 : Fin 1) k)) a := by
  simp only [val_main_v38_apply, val_main_v37_apply, val_main_v36_apply, val_main_v35_apply, val_main_cst_2_apply,
    val_main_v34_apply, val_main_call2_v2_apply, val_main_call2_v1_apply, val_main_call2_cst_apply,
    val_main_call2_v0_apply, val_main_v33_apply, sum_idx1]
  generalize Cr = C
  have e : ∀ k : Fin 256, idx_main_v33 (ix1 k) = ix2 (0 : Fin 1) k := fun k =>
    funext fun b => Fin.ext (by match b with | ⟨0, _⟩ => rfl | ⟨1, _⟩ => exact Nat.mod_eq_of_lt k.isLt)
  simp only [e, Ideal.hostDivf_def, Ideal.maximumf_def, Ideal.hostUnary_sqrt_def, Ideal.ofBits_def, Ideal.mulf_def, Ideal.ofBits_zero_f32, zero_add]
  rfl

/-- The reference's normalized positive rows at row i, lane h. -/
theorem ref_pos_rows (i : Fin 2048) (h : Fin 256) :
    val_main_v50 (F := Ideal) x0 x1 x2 x3 x5 x6 x7 x8 x9 x10 (ix2 i h) = unit (fun k => Pr (ix2 i k)) h := by
  simp only [val_main_v50_apply, val_main_v49_apply, val_main_v48_apply, val_main_v47_apply, val_main_cst_5_apply,
    val_main_v46_apply, val_main_call3_v2_apply, val_main_call3_v1_apply, val_main_call3_cst_apply,
    val_main_call3_v0_apply]
  generalize Pr = P
  have e : ∀ k : Fin 256, idx_main_call3_v1 (idx_main_call3_v2 (idx_main_v49 (ix2 i h))) k = ix2 i k := fun k =>
    funext fun b => Fin.ext (by match b with | ⟨0, _⟩ => rfl | ⟨1, _⟩ => rfl)
  simp only [e, Ideal.hostDivf_def, Ideal.maximumf_def, Ideal.hostUnary_sqrt_def, Ideal.ofBits_def, Ideal.mulf_def, Ideal.ofBits_zero_f32, zero_add]
  rfl

/-- The reference's normalized negative rows at row i, lane h. -/
theorem ref_neg_rows (i : Fin 2048) (h : Fin 256) :
    val_main_v62 (F := Ideal) x0 x1 x2 x4 x5 x6 x7 x8 x9 x10 (ix2 i h) = unit (fun k => Nr (ix2 i k)) h := by
  simp only [val_main_v62_apply, val_main_v61_apply, val_main_v60_apply, val_main_v59_apply, val_main_cst_8_apply,
    val_main_v58_apply, val_main_call4_v2_apply, val_main_call4_v1_apply, val_main_call4_cst_apply,
    val_main_call4_v0_apply]
  generalize Nr = N
  have e : ∀ k : Fin 256, idx_main_call4_v1 (idx_main_call4_v2 (idx_main_v61 (ix2 i h))) k = ix2 i k := fun k =>
    funext fun b => Fin.ext (by match b with | ⟨0, _⟩ => rfl | ⟨1, _⟩ => rfl)
  simp only [e, Ideal.hostDivf_def, Ideal.maximumf_def, Ideal.hostUnary_sqrt_def, Ideal.ofBits_def, Ideal.mulf_def, Ideal.ofBits_zero_f32, zero_add]
  rfl

/-- The reference's normalized threshold at lane h. -/
theorem ref_thr_row (h : Fin 256) :
    val_main_v67 (F := Ideal) x11 (ix2 (0 : Fin 1) h) = unit (fun k => x11 (ix2 (0 : Fin 1) k)) h := by
  simp only [val_main_v67_apply, val_main_v66_apply, val_main_v65_apply, val_main_v64_apply, val_main_cst_9_apply,
    val_main_v63_apply, val_main_call5_v2_apply, val_main_call5_v1_apply, val_main_call5_cst_apply,
    val_main_call5_v0_apply]
  have e : ∀ k : Fin 256, idx_main_call5_v1 (idx_main_call5_v2 (idx_main_v66 (ix2 (0 : Fin 1) h))) k
      = ix2 (0 : Fin 1) k := fun k =>
    funext fun b => Fin.ext (by match b with | ⟨0, _⟩ => rfl | ⟨1, _⟩ => rfl)
  simp only [e, Ideal.hostDivf_def, Ideal.maximumf_def, Ideal.hostUnary_sqrt_def, Ideal.ofBits_def, Ideal.mulf_def, Ideal.ofBits_zero_f32, zero_add]
  rfl

/-- The reference's mean positive score. -/
theorem ref_pos_mean (j : S_.Idx) :
    val_main_v73 (F := Ideal) x0 x1 x2 x3 x5 x6 x7 x8 x9 x10 j
      = meanScore (fun k => Cr (ix2 (0 : Fin 1) k)) (fun i k => Pr (ix2 i k)) := by
  simp only [val_main_v73_apply, val_main_cst_12_apply, val_main_v72_apply, val_main_cst_11_apply,
    val_main_v71_apply, val_main_cst_10_apply, val_main_v70_apply, val_main_v69_apply, val_main_v68_apply, sum_idx1]
  have e1 : ∀ (i : Fin 2048) (k : Fin 256), idx_main_v71 (ix1 i) k = ix2 i k := fun i k =>
    funext fun b => Fin.ext (by match b with | ⟨0, _⟩ => rfl | ⟨1, _⟩ => rfl)
  have e2 : ∀ (i : Fin 2048) (k : Fin 256), idx_main_v68 (idx_main_v69 (ix2 i k)) = ix1 k := fun i k =>
    funext fun b => Fin.ext (by match b with | ⟨0, _⟩ => rfl)
  simp only [e1, e2, ref_centre, ref_pos_rows, Ideal.hostDivf_def, Ideal.ofBits_def, Ideal.mulf_def, Ideal.ofBits_zero_f32, zero_add]
  rfl

/-- The reference's mean negative score. -/
theorem ref_neg_mean (j : S_.Idx) :
    val_main_v79 (F := Ideal) x0 x1 x2 x4 x5 x6 x7 x8 x9 x10 j
      = meanScore (fun k => Cr (ix2 (0 : Fin 1) k)) (fun i k => Nr (ix2 i k)) := by
  simp only [val_main_v79_apply, val_main_cst_15_apply, val_main_v78_apply, val_main_cst_14_apply,
    val_main_v77_apply, val_main_cst_13_apply, val_main_v76_apply, val_main_v75_apply, val_main_v74_apply, sum_idx1]
  have e1 : ∀ (i : Fin 2048) (k : Fin 256), idx_main_v77 (ix1 i) k = ix2 i k := fun i k =>
    funext fun b => Fin.ext (by match b with | ⟨0, _⟩ => rfl | ⟨1, _⟩ => rfl)
  have e2 : ∀ (i : Fin 2048) (k : Fin 256), idx_main_v74 (idx_main_v75 (ix2 i k)) = ix1 k := fun i k =>
    funext fun b => Fin.ext (by match b with | ⟨0, _⟩ => rfl)
  simp only [e1, e2, ref_centre, ref_neg_rows, Ideal.hostDivf_def, Ideal.ofBits_def, Ideal.mulf_def, Ideal.ofBits_zero_f32, zero_add]
  rfl

/-- The reference's threshold score. -/
theorem ref_thr :
    val_main_v82 (F := Ideal) x0 x1 x2 x5 x6 x7 x8 x9 x10 x11 (ix1 (0 : Fin 1))
      = score (fun k => Cr (ix2 (0 : Fin 1) k)) (fun k => x11 (ix2 (0 : Fin 1) k)) := by
  simp only [val_main_v82_apply, val_main_cst_16_apply, val_main_v81_apply, val_main_v80_apply]
  have e1 : ∀ k : Fin 256, idx_main_v82 (ix1 (0 : Fin 1)) k = ix2 (0 : Fin 1) k := fun k =>
    funext fun b => Fin.ext (by match b with | ⟨0, _⟩ => rfl | ⟨1, _⟩ => rfl)
  have e2 : ∀ k : Fin 256, idx_main_v80 (ix2 (0 : Fin 1) k) = ix1 k := fun k =>
    funext fun b => Fin.ext (by match b with | ⟨0, _⟩ => rfl)
  simp only [e1, e2, ref_centre, ref_thr_row, Ideal.hostDivf_def, Ideal.ofBits_def, Ideal.mulf_def, Ideal.ofBits_zero_f32, zero_add]
  rfl

/-- The reference's result. -/
theorem ref_loss (j : S_.Idx) :
    val_main_v112 (F := Ideal) x0 x1 x2 x3 x4 x5 x6 x7 x8 x9 x10 x11 j
      = lossOf (fun k => Cr (ix2 (0 : Fin 1) k)) (fun i k => Pr (ix2 i k)) (fun i k => Nr (ix2 i k))
          (fun k => x11 (ix2 (0 : Fin 1) k)) := by
  simp only [val_main_v112_apply, val_main_v111_apply, val_main_v110_apply, val_main_cst_28_apply,
    val_main_v109_apply, val_main_cst_27_apply, val_main_v108_apply, val_main_v107_apply, val_main_call7_v1_apply,
    val_main_call7_v0_apply, val_main_cst_26_apply, val_main_v106_apply, val_main_v105_apply, val_main_cst_25_apply,
    val_main_v104_apply, val_main_v103_apply, val_main_cst_24_apply, val_main_v102_apply, val_main_v101_apply,
    val_main_v100_apply, val_main_v99_apply, val_main_cst_23_apply, val_main_v98_apply, val_main_v97_apply,
    val_main_v96_apply, val_main_cst_22_apply, val_main_v95_apply, val_main_cst_21_apply, val_main_v94_apply,
    val_main_v93_apply, val_main_call6_v1_apply, val_main_call6_v0_apply, val_main_cst_20_apply, val_main_v92_apply,
    val_main_v91_apply, val_main_cst_19_apply, val_main_v90_apply, val_main_v89_apply, val_main_cst_18_apply,
    val_main_v88_apply, val_main_v87_apply, val_main_v86_apply, val_main_v85_apply, val_main_cst_17_apply,
    val_main_v84_apply, val_main_v83_apply, sum_idx1, Fin.sum_univ_one,
    ref_pos_mean, ref_neg_mean, ref_thr]
  simp only [Ideal.hostNegf_def, Ideal.negf_def, Ideal.subf_def, Ideal.addf_def, Ideal.hostDivf_def,
    Ideal.maximumf_def, Ideal.hostUnary_log_def, Ideal.hostUnary_exp_def, Ideal.ofBits_def,
    Ideal.ofBits_zero_f32, Ideal.ofBits_one_f32, zero_add, div_one']
  unfold lossOf tail Ideal.logistic eps
  rw [max_comm (Ideal.ofBits .f32 0x2B8CBCCC#32) _, max_comm (Ideal.ofBits .f32 0x2B8CBCCC#32) _]

end Reference

/-- The loss kernel's arithmetic, applied to row 0 of the embeddings, the gathered positive rows, the gathered
    negative rows and the threshold, and read as a scalar, is the reference's result. -/
theorem loss_eq (x0 : (⟨S40000x128, .f32⟩ : BufTy).Contents (Elt Ideal)) (x1 : (⟨S2x640000, .i32⟩ : BufTy).Contents (Elt Ideal)) (x2 : (⟨S640000x64, .f32⟩ : BufTy).Contents (Elt Ideal)) (x3 x4 : (⟨S2048, .i32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S1x256, .f32⟩ : BufTy).Contents (Elt Ideal)) :
    shapeCast Cert.KernelIdeal.S_ (Cert.KernelIdeal.Gen.k2_pay1 (F := Ideal)
        (Cert.KernelIdeal.Gen.k2_pay2 (val_main_v32 (F := Ideal) x0 x1 x2 x5 x6 x7 x8 x9 x10))
        (Cert.KernelIdeal.Gen.k2_pay3 (val_main_v57 (F := Ideal) x0 x1 x2 x4 x5 x6 x7 x8 x9 x10))
        (Cert.KernelIdeal.Gen.k2_pay4 x11)
        (Cert.KernelIdeal.Gen.k2_pay5 (val_main_v32 (F := Ideal) x0 x1 x2 x5 x6 x7 x8 x9 x10)
          (val_main_v45 (F := Ideal) x0 x1 x2 x3 x5 x6 x7 x8 x9 x10)))
      Cert.KernelIdeal.Facts₀.shapeCasts_S1x1_S_
    = val_main_v112 (F := Ideal) x0 x1 x2 x3 x4 x5 x6 x7 x8 x9 x10 x11 := by
  funext j
  exact (kernel_loss_scalar _ _ _ _ _ j).trans (ref_loss x0 x1 x2 x3 x4 x5 x6 x7 x8 x9 x10 x11 j).symm

end Cert.LossTail

end
-- ==== Proof.lean ====
/-
  The certificate of a graph layer followed by a contrastive loss: edge messages max (x[src] + (edge_attr · We + be), 0), their
  scatter-add over the destinations, the node network relu ((1 · x + agg) · W1 + b1) · W2 + b2, and the loss
  −log max (σ (mean ⟨ĉ, p̂⟩ − ⟨ĉ, t̂⟩), ε) − log max (σ (⟨ĉ, t̂⟩ − mean ⟨ĉ, n̂⟩), ε) of the normalized centre, positive, negative and
  threshold rows. The kernel computes the messages in 40 blocks of rows and the embeddings in 5, the reference in one host
  operation each; the gathers, the index wraps and the scatter-add are the same host operations in both. On the extended reals
  the two programs are one function of the arguments: the blocks are rows of one row-wise function, a matrix product into a
  zero accumulator is the host's product, the kernel's logistic is the host's 1 / (1 + exp (−x)), and the two layouts of the
  loss sum the same terms in the same order. No law that fails at an infinity is used, so the precondition is never opened.
  The three frames are the generated ones (the reference's is its generated run with the result dropped); nothing was
  rewritten by the idealization, so it is preserved trivially.
-/
import proofs.«149798_j86878598463719_2_alg».proof.Defs
import proofs.«149798_j86878598463719_2_alg».proof.Proof.Gen.Kernel
import proofs.«149798_j86878598463719_2_alg».proof.Proof.Gen.Kernel.Skeleton
import proofs.«149798_j86878598463719_2_alg».proof.Proof.Gen.Kernel.Launch
import proofs.«149798_j86878598463719_2_alg».proof.Proof.Gen.Kernel.Points
import proofs.«149798_j86878598463719_2_alg».proof.Proof.Gen.Kernel.Frame
import proofs.«149798_j86878598463719_2_alg».proof.Proof.Gen.KernelIdeal
import proofs.«149798_j86878598463719_2_alg».proof.Proof.Gen.KernelIdeal.Skeleton
import proofs.«149798_j86878598463719_2_alg».proof.Proof.Gen.KernelIdeal.Launch
import proofs.«149798_j86878598463719_2_alg».proof.Proof.Gen.KernelIdeal.Points
import proofs.«149798_j86878598463719_2_alg».proof.Proof.Gen.KernelIdeal.Frame
import proofs.«149798_j86878598463719_2_alg».proof.Proof.Gen.ReferenceIdeal
import proofs.«149798_j86878598463719_2_alg».proof.Proof.Gen.Pre_finite_inputs
import proofs.«149798_j86878598463719_2_alg».proof.Proof.Gen.ReferenceIdeal.Run
import proofs.«149798_j86878598463719_2_alg».proof.Proof.Gen.ReferenceIdeal.Read
import proofs.«149798_j86878598463719_2_alg».proof.Proof.RunValue
import proofs.«149798_j86878598463719_2_alg».proof.Proof.Fold
import proofs.«149798_j86878598463719_2_alg».proof.Proof.LossTail
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same scalar: the kernel's result is its
    loss arithmetic of the reference's own centre, positive and negative rows (the fold through its three regions), and that
    arithmetic is the reference's result stage. -/
theorem algebraic : Cert.algebraic_KernelIdeal_ReferenceIdeal := by
  intro m ρ m' ρ' _ hagree
  refine ⟨fun c => Cert.KernelIdeal.Gen.W7 m ρ c (Proc.devRef .tc Cert.KernelIdeal.main_v35), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v112_eq, h0, h1, h2, h3, h4, h5, h6, h7, h8, h9, h10, h11]
  exact ((Cert.KernelIdeal.Hand.W7_v35 m ρ c).trans (Cert.LossTail.loss_eq _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
